-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v42_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S1x128 : Shape := ⟨2, ![1, 128]⟩
abbrev S6000x128 : Shape := ⟨2, ![6000, 128]⟩
abbrev S6000x3 : Shape := ⟨2, ![6000, 3]⟩
abbrev S6000 : Shape := ⟨1, ![6000]⟩
abbrev S6000x1 : Shape := ⟨2, ![6000, 1]⟩
abbrev S600000x4 : Shape := ⟨2, ![600000, 4]⟩
abbrev S50000x4 : Shape := ⟨2, ![50000, 4]⟩
abbrev S50000x1 : Shape := ⟨2, ![50000, 1]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 87
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S50000x128, .bf16⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .bf16⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .bf16⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x3, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x3, .f32⟩
  | .hbm, ⟨55, _⟩ => ⟨S600000x3, .f32⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S1x128, .f32⟩
  | .hbm, ⟨61, _⟩ => ⟨S128x128, .bf16⟩
  | .hbm, ⟨62, _⟩ => ⟨S128x128, .bf16⟩
  | .hbm, ⟨63, _⟩ => ⟨S128x1, .bf16⟩
  | .hbm, ⟨64, _⟩ => ⟨S600000x128, .f32⟩
  | .hbm, ⟨65, _⟩ => ⟨S600000x3, .f32⟩
  | .hbm, ⟨66, _⟩ => ⟨S_, .f32⟩
  | .hbm, ⟨67, _⟩ => ⟨S600000x1, .f32⟩
  | .hbm, ⟨68, _⟩ => ⟨S600000x4, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S_, .f32⟩
  | .hbm, ⟨74, _⟩ => ⟨S50000x4, .f32⟩
  | .hbm, ⟨75, _⟩ => ⟨S600000x1, .i32⟩
  | .hbm, ⟨76, _⟩ => ⟨S50000x4, .f32⟩
  | .hbm, ⟨77, _⟩ => ⟨S50000x3, .f32⟩
  | .hbm, ⟨78, _⟩ => ⟨S50000x1, .f32⟩
  | .hbm, ⟨79, _⟩ => ⟨S50000x128, .bf16⟩
  | .hbm, ⟨80, _⟩ => ⟨S128x128, .f32⟩
  | .hbm, ⟨81, _⟩ => ⟨S128x128, .bf16⟩
  | .hbm, ⟨82, _⟩ => ⟨S128x128, .f32⟩
  | .hbm, ⟨83, _⟩ => ⟨S128x128, .bf16⟩
  | .hbm, ⟨84, _⟩ => ⟨S128x128, .bf16⟩
  | .hbm, ⟨85, _⟩ => ⟨S50000x128, .f32⟩
  | .hbm, ⟨86, _⟩ => ⟨S50000x3, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S6000x3, .f32⟩
  | .local _ .vmem, ⟨5, _⟩ => ⟨S6000x3, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x1, .bf16⟩
  | .local _ .vmem, ⟨15, _⟩ => ⟨S6000x128, .f32⟩
  | .local _ .vmem, ⟨16, _⟩ => ⟨S6000x128, .f32⟩
  | .local _ .vmem, ⟨17, _⟩ => ⟨S6000x3, .f32⟩
  | .local _ .vmem, ⟨18, _⟩ => ⟨S6000x3, .f32⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S2000x3, .f32⟩
  | .local _ .vmem, ⟨24, _⟩ => ⟨S2000x3, .f32⟩
  | .local _ .vmem, ⟨25, _⟩ => ⟨S2000x3, .f32⟩
  | .local _ .vmem, ⟨26, _⟩ => ⟨S2000x3, .f32⟩
  | .local _ .vmem, ⟨27, _⟩ => ⟨S2000x1, .f32⟩
  | .local _ .vmem, ⟨28, _⟩ => ⟨S2000x1, .f32⟩
  | .local _ .vmem, ⟨29, _⟩ => ⟨S128x128, .bf16⟩
  | .local _ .vmem, ⟨30, _⟩ => ⟨S128x128, .bf16⟩
  | .local _ .vmem, ⟨31, _⟩ => ⟨S128, .f32⟩
  | .local _ .vmem, ⟨32, _⟩ => ⟨S128x128, .bf16⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x3, .f32⟩
  | .local _ .vmem, ⟨37, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x3 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x3_S6000x3_0_0 : ∀ a, (![0, 0] : Fin 2 → Nat) a + S6000x3.size a ≤ S6000x3.size a
  h_S6000x3 : 0 < S6000x3.numel
  shapeCasts_S6000x3_S6000x3 : S6000x3.ShapeCasts S6000x3
  reduces_S6000x3_S6000 : S6000x3.Reduces [1] S6000
  shapeCasts_S6000_S6000x1 : S6000.ShapeCasts S6000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6000x1_S6000x128 : S6000x1.Broadcasts S6000x128
  broadcasts_S1x128_S6000x128 : S1x128.Broadcasts S6000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S6000x1_S6000x3 : S6000x1.Broadcasts S6000x3
  bcast_S_S600000x1 : S_.BroadcastsInDim S600000x1 (![] : Fin 0 → Fin S600000x1.rank)
  concatenates_S600000x3_S600000x1_S600000x4_d1 : Shape.Concatenates [S600000x3, S600000x1] S600000x4 1
  bcast_S_S50000x128 : S_.BroadcastsInDim S50000x128 (![] : Fin 0 → Fin S50000x128.rank)
  bcast_S_S50000x4 : S_.BroadcastsInDim S50000x4 (![] : Fin 0 → Fin S50000x4.rank)
  slices_S50000x4_S50000x3_0_0 : S50000x4.Slices ![0, 0] S50000x3
  slices_S50000x4_S50000x1_0_3 : S50000x4.Slices ![0, 3] S50000x1
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x3 : S2000x1.Broadcasts S2000x3
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S6000x128_S128x128_S6000x128_1_0_0_1_n_n_wf : DotDims.WF S6000x128 S128x128 S6000x128 [1] [0] [0] [1] [] []
  dot_S6000x128_S128x1_S6000x1_1_0_0_1_n_n_wf : DotDims.WF S6000x128 S128x1 S6000x1 [1] [0] [0] [1] [] []
  scatter_S50000x128_S600000x1_S600000x128_1_0_0_1_wf : ScatterDims.WF S50000x128 S600000x1 S600000x128 [1] [0] [0] 1
  scatter_S50000x4_S600000x1_S600000x4_1_0_0_1_wf : ScatterDims.WF S50000x4 S600000x1 S600000x4 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x3.size a ≤ S600000x3.size a
  hwx0_2 : ∀ i : grid0.Coords, EltTy.bits .f32 = 32 ∨ (Rect.block (s := S600000x3) S6000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S6000x128.size a ≤ S600000x128.size a
  hwx0_12 : ∀ i : grid0.Coords, EltTy.bits .f32 = 32 ∨ (Rect.block (s := S600000x128) S6000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6000x3.size a ≤ S600000x3.size a
  hwx0_13 : ∀ i : grid0.Coords, EltTy.bits .f32 = 32 ∨ (Rect.block (s := S600000x3) S6000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x3.size a ≤ S50000x3.size a
  hwx1_11 : ∀ i : grid1.Coords, EltTy.bits .f32 = 32 ∨ (Rect.block (s := S50000x3) S2000x3.size (cc1_transform_11 i) (hinb1_11 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S6000x128_S128x1_S6000x1_1_0_0_1_n_n : DotDims S6000x128 S128x1 S6000x1 where
  lhsContracting := [1]
  rhsContracting := [0]
  lhsNonContracting := [0]
  rhsNonContracting := [1]
  lhsBatch := []
  rhsBatch := []
  wf := dot_S6000x128_S128x1_S6000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x4_S600000x1_S600000x4_1_0_0_1 : ScatterDims S50000x4 S600000x1 S600000x4 where
  updateWindowDims := [1]
  insertedWindowDims := [0]
  scatterDimsToOperandDims := [0]
  indexVectorDim := 1
  wf := scatter_S50000x4_S600000x1_S600000x4_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S6000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42_0) S6000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v42_1) S6000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59_0) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v59_1) S2000x3.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S50000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x3, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x3, .f32⟩
  | 36 => ⟨S600000x3, .f32⟩
  | 37 => ⟨S600000x3, .f32⟩
  | 38 => ⟨S_, .f32⟩
  | 39 => ⟨S600000, .f32⟩
  | 40 => ⟨S600000x1, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x257, .f32⟩
  | 60 => ⟨S600000x128, .f32⟩
  | 61 => ⟨S1x128, .f32⟩
  | 62 => ⟨S600000x128, .f32⟩
  | 63 => ⟨S600000x128, .f32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S600000x128, .f32⟩
  | 74 => ⟨S1x128, .f32⟩
  | 75 => ⟨S600000x128, .f32⟩
  | 76 => ⟨S600000x128, .f32⟩
  | 77 => ⟨S600000x128, .f32⟩
  | 78 => ⟨S600000x128, .f32⟩
  | 79 => ⟨S_, .f32⟩
  | 80 => ⟨S600000x128, .f32⟩
  | 81 => ⟨S600000x128, .f32⟩
  | 82 => ⟨S_, .f32⟩
  | 83 => ⟨S600000x128, .f32⟩
  | 84 => ⟨S600000x128, .f32⟩
  | 85 => ⟨S600000x128, .f32⟩
  | 86 => ⟨S600000x128, .f32⟩
  | 87 => ⟨S1x128, .f32⟩
  | 88 => ⟨S600000x128, .f32⟩
  | 89 => ⟨S600000x128, .f32⟩
  | 90 => ⟨S600000x128, .f32⟩
  | 91 => ⟨S600000x128, .f32⟩
  | 92 => ⟨S_, .f32⟩
  | 93 => ⟨S600000x128, .f32⟩
  | 94 => ⟨S600000x128, .f32⟩
  | 95 => ⟨S_, .f32⟩
  | 96 => ⟨S600000x128, .f32⟩
  | 97 => ⟨S600000x128, .f32⟩
  | 98 => ⟨S600000x128, .f32⟩
  | 99 => ⟨S600000x1, .f32⟩
  | 100 => ⟨S600000x3, .f32⟩
  | 101 => ⟨S600000x3, .f32⟩
  | 102 => ⟨S_, .f32⟩
  | 103 => ⟨S50000x3, .f32⟩
  | 104 => ⟨S600000x1, .i32⟩
  | 105 => ⟨S50000x3, .f32⟩
  | 106 => ⟨S_, .f32⟩
  | 107 => ⟨S600000x1, .f32⟩
  | 108 => ⟨S_, .f32⟩
  | 109 => ⟨S50000x1, .f32⟩
  | 110 => ⟨S600000x1, .i32⟩
  | 111 => ⟨S50000x1, .f32⟩
  | 112 => ⟨S_, .f32⟩
  | 113 => ⟨S50000x1, .f32⟩
  | 114 => ⟨S50000x1, .f32⟩
  | 115 => ⟨S50000x3, .f32⟩
  | 116 => ⟨S50000x3, .f32⟩
  | 117 => ⟨S50000x3, .f32⟩
  | 118 => ⟨S_, .f32⟩
  | 119 => ⟨S50000x128, .f32⟩
  | 120 => ⟨S600000x1, .i32⟩
  | 121 => ⟨S50000x128, .f32⟩
  | 122 => ⟨S50000x256, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_8 : Ref sig .tc := ⟨.hbm, 106, rfl⟩
abbrev main_v58 : Ref sig .tc := ⟨.hbm, 107, rfl⟩
abbrev main_cst_9 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_10 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_11 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call3_v0 : Ref sig .tc := ⟨.hbm, 127, rfl⟩
abbrev main_call3_v1 : Ref sig .tc := ⟨.hbm, 128, rfl⟩
abbrev main_call3_cst : Ref sig .tc := ⟨.hbm, 129, rfl⟩
abbrev main_call3_v2 : Ref sig .tc := ⟨.hbm, 130, rfl⟩
abbrev main_call3_v3 : Ref sig .tc := ⟨.hbm, 131, rfl⟩
abbrev main_call3_cst_0 : Ref sig .tc := ⟨.hbm, 132, rfl⟩
abbrev main_call3_v4 : Ref sig .tc := ⟨.hbm, 133, rfl⟩
abbrev main_call3_v5 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000x1_S600000x3_0_1 : S600000x1.BroadcastsInDim S600000x3 (![0, 1] : Fin 2 → Fin S600000x3.rank)
  bcast_S_S50000x3 : S_.BroadcastsInDim S50000x3 (![] : Fin 0 → Fin S50000x3.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000x3_S600000x1_S600000x3_1_0_0_1_wf : ScatterDims.WF S50000x3 S600000x1 S600000x3 [1] [0] [0] 1
  scatter_S50000x1_S600000x1_S600000x1_1_0_0_1_wf : ScatterDims.WF S50000x1 S600000x1 S600000x1 [1] [0] [0] 1
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its three results NAMED.

  @main is four segments: the host operations before the edge region, the edge region, the host operations between
  the regions, the node region. The contents of every buffer at each boundary are a fold through @main from the
  launch memory (`W0 … W4`); every weakly fair execution terminates, nothing faulting, with every unscoped buffer
  at the last boundary's contents `W4`. Read at the three result buffers that gives each result as `W4` there, and
  read at the arguments it gives them back unchanged.
-/
import proofs.«129493_j21560735826057_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the node features, the node coordinates
    and the edge features at the last boundary's contents, and the fourteen arguments as launched. -/
theorem run_named : θ_run defs (onTc (τ := τ) (main (F := F))) ⟨m, fun _ => 0, ρ⟩ (fun r => ∀ c : Dev nD,
      r.2.mem ((c.tc : Thread nD τ).loc main_v59_0) = W4 m ρ c (Proc.devRef .tc main_v59_0)
      ∧ r.2.mem ((c.tc : Thread nD τ).loc main_v59_1) = W4 m ρ c (Proc.devRef .tc main_v59_1)
      ∧ r.2.mem ((c.tc : Thread nD τ).loc main_v42_0) = W4 m ρ c (Proc.devRef .tc main_v42_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v59_0 (by decide)),
       h c _ (mem_uc main_v59_1 (by decide)),
       h c _ (mem_uc main_v42_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.RunValue

end
-- ==== Proof.KernelHost.lean ====
/-
  The idealized kernel program's host side, as functions of the argument arrays.

  Before the edge region @main slices the two rows of the edge list, turns a negative endpoint `i` into `i + 50000`,
  gathers the endpoint features and coordinates, takes the coordinate difference, and cuts the first edge layer's
  257×128 weights into rows [0,128), [128,256) and row 256. Here those values are named, and each array the edge region
  is entered with is shown to hold the named function of the arguments (a change of float format being the identity
  on the extended reals, the 16-bit arrays are the 32-bit ones).
-/
import proofs.«129493_j21560735826057_2_alg».proof.Proof.Gen.KernelIdeal.Frame
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The source endpoint of every edge: row 0 of the edge list. -/
def rowI (E : IVec S2x600000 32) : IVec S600000 32 :=
  shapeCast S600000 (extractStridedSlice S1x600000 ![0, 0] E slices_S2x600000_S1x600000_0_0) shapeCasts_S1x600000_S600000

/-- The target endpoint of every edge: row 1 of the edge list. -/
def colI (E : IVec S2x600000 32) : IVec S600000 32 :=
  shapeCast S600000 (extractStridedSlice S1x600000 ![1, 0] E slices_S2x600000_S1x600000_1_0) shapeCasts_S1x600000_S600000

/-- An endpoint list as a column of gather indices, a negative endpoint `i` read as `i + 50000`. -/
def wrapIdx (I : IVec S600000 32) : IVec S600000x1 32 :=
  broadcastInDim S600000x1 ![0] bcast_S600000_S600000x1_0
    (select (cmpi .slt I (broadcastInDim S600000 ![] bcast_S_S600000 (constantI S_ 32 0#32)))
      (addi I (broadcastInDim S600000 ![] bcast_S_S600000 (constantI S_ 32 50000#32))) I)

/-- An endpoint list as a column of scatter indices, as it is. -/
def colIdx (I : IVec S600000 32) : IVec S600000x1 32 :=
  broadcastInDim S600000x1 ![0] bcast_S600000_S600000x1_0 I

/-- The node features at every edge's endpoint. -/
def gatherH (H : FVec Ideal S50000x128 .f32) (I : IVec S600000 32) : FVec Ideal S600000x128 .bf16 :=
  Host.gather gather_S50000x128_S600000x1_S600000x128_1_0_n_n_0_1_1128 (truncf .bf16 H bitsLt_bf16_f32) (wrapIdx I)

/-- The node coordinates at every edge's endpoint. -/
def gatherX (X : FVec Ideal S50000x3 .f32) (I : IVec S600000 32) : FVec Ideal S600000x3 .f32 :=
  Host.gather gather_S50000x3_S600000x1_S600000x3_1_0_n_n_0_1_13 X (wrapIdx I)

/-- The coordinate difference along every edge. -/
def coordDiff (X : FVec Ideal S50000x3 .f32) (E : IVec S2x600000 32) : FVec Ideal S600000x3 .f32 :=
  subf (gatherX X (rowI E)) (gatherX X (colI E))

/-- The edge features summed over the edges leaving each node (an edge whose source is outside [0, 50000) adds nothing). -/
def aggOf (EF : FVec Ideal S600000x128 .f32) (I : IVec S600000 32) : FVec Ideal S50000x128 .bf16 :=
  truncf .bf16 (Host.scatterAdd scatter_S50000x128_S600000x1_S600000x128_1_0_0_1
    (broadcastInDim S50000x128 ![] bcast_S_S50000x128 (constant (F := Ideal) S_ .f32 0x00000000#32)) (colIdx I) EF) bitsLt_bf16_f32

/-- The translations with a column of ones beside them, summed over the edges leaving each node in one pass: columns 0–2 the
    summed translations, column 3 the number of edges. -/
def sum4Of (TR : FVec Ideal S600000x3 .f32) (I : IVec S600000 32) : FVec Ideal S50000x4 .f32 :=
  Host.scatterAdd scatter_S50000x4_S600000x1_S600000x4_1_0_0_1
    (broadcastInDim S50000x4 ![] bcast_S_S50000x4 (constant (F := Ideal) S_ .f32 0x00000000#32)) (colIdx I)
    (concatenate S600000x4 1 [⟨S600000x3, TR⟩,
      ⟨S600000x1, broadcastInDim S600000x1 ![] bcast_S_S600000x1 (constant (F := Ideal) S_ .f32 0x3F800000#32)⟩]
      concatenates_S600000x3_S600000x1_S600000x4_d1)

/-- Its first three columns. -/
def tSumOf (TR : FVec Ideal S600000x3 .f32) (I : IVec S600000 32) : FVec Ideal S50000x3 .f32 :=
  extractStridedSlice S50000x3 ![0, 0] (sum4Of TR I) slices_S50000x4_S50000x3_0_0

/-- Its last column. -/
def cntOf (TR : FVec Ideal S600000x3 .f32) (I : IVec S600000 32) : FVec Ideal S50000x1 .f32 :=
  extractStridedSlice S50000x1 ![0, 3] (sum4Of TR I) slices_S50000x4_S50000x1_0_3

variable (m : (ℓ : Loc nD τ sig) → Buf (Elt Ideal) ℓ) (ρ : Dev nD → PrngReg)

/-! ## The buffers at the edge region's entry -/

theorem W1_v1 (c : Dev nD) : W1 m ρ c (Proc.devRef .tc main_v1) = rowI (m ((c : Thread nD τ).loc main_arg2)) := by
  show StableHlo.after hostOps0 (W0 m ρ c) (Proc.devRef .tc main_v1) = _
  dsimp only [hostOps0]
  after_results_simp <;> rfl

theorem W1_v11 (c : Dev nD) : W1 m ρ c (Proc.devRef .tc main_v11) = gatherH (m ((c : Thread nD τ).loc main_arg0)) (rowI (m ((c : Thread nD τ).loc main_arg2))) := by
  show StableHlo.after hostOps0 (W0 m ρ c) (Proc.devRef .tc main_v11) = _
  dsimp only [hostOps0]
  after_results_simp <;> rfl

theorem W1_v18 (c : Dev nD) : W1 m ρ c (Proc.devRef .tc main_v18) = gatherH (m ((c : Thread nD τ).loc main_arg0)) (colI (m ((c : Thread nD τ).loc main_arg2))) := by
  show StableHlo.after hostOps0 (W0 m ρ c) (Proc.devRef .tc main_v18) = _
  dsimp only [hostOps0]
  after_results_simp <;> rfl

theorem W1_v33 (c : Dev nD) : W1 m ρ c (Proc.devRef .tc main_v33) = coordDiff (m ((c : Thread nD τ).loc main_arg1)) (m ((c : Thread nD τ).loc main_arg2)) := by
  show StableHlo.after hostOps0 (W0 m ρ c) (Proc.devRef .tc main_v33) = _
  dsimp only [hostOps0]
  after_results_simp <;> rfl

theorem W1_v35 (c : Dev nD) : W1 m ρ c (Proc.devRef .tc main_v35) = (truncf .bf16 (extractStridedSlice S128x128 ![0, 0] (m ((c : Thread nD τ).loc main_arg3)) slices_S257x128_S128x128_0_0) bitsLt_bf16_f32 : FVec Ideal S128x128 .bf16) := by
  show StableHlo.after hostOps0 (W0 m ρ c) (Proc.devRef .tc main_v35) = _
  dsimp only [hostOps0]
  after_results_simp <;> rfl

theorem W1_v37 (c : Dev nD) : W1 m ρ c (Proc.devRef .tc main_v37) = (truncf .bf16 (extractStridedSlice S128x128 ![128, 0] (m ((c : Thread nD τ).loc main_arg3)) slices_S257x128_S128x128_128_0) bitsLt_bf16_f32 : FVec Ideal S128x128 .bf16) := by
  show StableHlo.after hostOps0 (W0 m ρ c) (Proc.devRef .tc main_v37) = _
  dsimp only [hostOps0]
  after_results_simp <;> rfl

theorem W1_v38 (c : Dev nD) : W1 m ρ c (Proc.devRef .tc main_v38) = (extractStridedSlice S1x128 ![256, 0] (m ((c : Thread nD τ).loc main_arg3)) slices_S257x128_S1x128_256_0 : FVec Ideal S1x128 .f32) := by
  show StableHlo.after hostOps0 (W0 m ρ c) (Proc.devRef .tc main_v38) = _
  dsimp only [hostOps0]
  after_results_simp <;> rfl

theorem W1_v39 (c : Dev nD) : W1 m ρ c (Proc.devRef .tc main_v39) = (truncf .bf16 (m ((c : Thread nD τ).loc main_arg5)) bitsLt_bf16_f32 : FVec Ideal S128x128 .bf16) := by
  show StableHlo.after hostOps0 (W0 m ρ c) (Proc.devRef .tc main_v39) = _
  dsimp only [hostOps0]
  after_results_simp <;> rfl

theorem W1_v40 (c : Dev nD) : W1 m ρ c (Proc.devRef .tc main_v40) = (truncf .bf16 (m ((c : Thread nD τ).loc main_arg11)) bitsLt_bf16_f32 : FVec Ideal S128x128 .bf16) := by
  show StableHlo.after hostOps0 (W0 m ρ c) (Proc.devRef .tc main_v40) = _
  dsimp only [hostOps0]
  after_results_simp <;> rfl

theorem W1_v41 (c : Dev nD) : W1 m ρ c (Proc.devRef .tc main_v41) = (truncf .bf16 (m ((c : Thread nD τ).loc main_arg13)) bitsLt_bf16_f32 : FVec Ideal S128x1 .bf16) := by
  show StableHlo.after hostOps0 (W0 m ρ c) (Proc.devRef .tc main_v41) = _
  dsimp only [hostOps0]
  after_results_simp <;> rfl

theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl

theorem W1_arg1 (c : Dev nD) : W1 m ρ c (Proc.devRef .tc main_arg1) = (m ((c : Thread nD τ).loc main_arg1)) := by
  show StableHlo.after hostOps0 (W0 m ρ c) (Proc.devRef .tc main_arg1) = _
  dsimp only [hostOps0]
  after_results_simp <;> rfl

theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl

theorem W1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl

theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl

theorem W1_arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl

theorem W1_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl

theorem W1_arg10 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results_simp <;> rfl

theorem W1_arg12 (c : Dev nD) : W1 m ρ c (Proc.devRef .tc main_arg12) = (m ((c : Thread nD τ).loc main_arg12)) := by
  show StableHlo.after hostOps0 (W0 m ρ c) (Proc.devRef .tc main_arg12) = _
  dsimp only [hostOps0]
  after_results_simp <;> rfl

/-! ## The buffers at the node region's entry, over the contents the edge region leaves -/

theorem W3_v53 (c : Dev nD) : W3 m ρ c (Proc.devRef .tc main_v53) = aggOf (W2 m ρ c (Proc.devRef .tc main_v42_0)) (W2 m ρ c (Proc.devRef .tc main_v1)) := by
  show StableHlo.after hostOps1 (W2 m ρ c) (Proc.devRef .tc main_v53) = _
  dsimp only [hostOps1]
  after_results_simp <;> rfl

theorem W3_v51 (c : Dev nD) : W3 m ρ c (Proc.devRef .tc main_v51) = tSumOf (W2 m ρ c (Proc.devRef .tc main_v42_1)) (W2 m ρ c (Proc.devRef .tc main_v1)) := by
  show StableHlo.after hostOps1 (W2 m ρ c) (Proc.devRef .tc main_v51) = _
  dsimp only [hostOps1]
  after_results_simp <;> rfl

theorem W3_v52 (c : Dev nD) : W3 m ρ c (Proc.devRef .tc main_v52) = cntOf (W2 m ρ c (Proc.devRef .tc main_v42_1)) (W2 m ρ c (Proc.devRef .tc main_v1)) := by
  show StableHlo.after hostOps1 (W2 m ρ c) (Proc.devRef .tc main_v52) = _
  dsimp only [hostOps1]
  after_results_simp <;> rfl

theorem W3_v55 (c : Dev nD) : W3 m ρ c (Proc.devRef .tc main_v55) = (truncf .bf16 (extractStridedSlice S128x128 ![0, 0] (W2 m ρ c (Proc.devRef .tc main_arg7)) slices_S256x128_S128x128_0_0) bitsLt_bf16_f32 : FVec Ideal S128x128 .bf16) := by
  show StableHlo.after hostOps1 (W2 m ρ c) (Proc.devRef .tc main_v55) = _
  dsimp only [hostOps1]
  after_results_simp <;> rfl

theorem W3_v57 (c : Dev nD) : W3 m ρ c (Proc.devRef .tc main_v57) = (truncf .bf16 (extractStridedSlice S128x128 ![128, 0] (W2 m ρ c (Proc.devRef .tc main_arg7)) slices_S256x128_S128x128_128_0) bitsLt_bf16_f32 : FVec Ideal S128x128 .bf16) := by
  show StableHlo.after hostOps1 (W2 m ρ c) (Proc.devRef .tc main_v57) = _
  dsimp only [hostOps1]
  after_results_simp <;> rfl

theorem W3_v58 (c : Dev nD) : W3 m ρ c (Proc.devRef .tc main_v58) = (truncf .bf16 (W2 m ρ c (Proc.devRef .tc main_arg9)) bitsLt_bf16_f32 : FVec Ideal S128x128 .bf16) := by
  show StableHlo.after hostOps1 (W2 m ρ c) (Proc.devRef .tc main_v58) = _
  dsimp only [hostOps1]
  after_results_simp <;> rfl

theorem W3_arg0 (c : Dev nD) : W3 m ρ c (Proc.devRef .tc main_arg0) = (W2 m ρ c (Proc.devRef .tc main_arg0)) := by
  show StableHlo.after hostOps1 (W2 m ρ c) (Proc.devRef .tc main_arg0) = _
  dsimp only [hostOps1]
  after_results_simp <;> rfl

theorem W3_arg1 (c : Dev nD) : W3 m ρ c (Proc.devRef .tc main_arg1) = (W2 m ρ c (Proc.devRef .tc main_arg1)) := by
  show StableHlo.after hostOps1 (W2 m ρ c) (Proc.devRef .tc main_arg1) = _
  dsimp only [hostOps1]
  after_results_simp <;> rfl

theorem W3_arg8 (c : Dev nD) : W3 m ρ c (Proc.devRef .tc main_arg8) = (W2 m ρ c (Proc.devRef .tc main_arg8)) := by
  show StableHlo.after hostOps1 (W2 m ρ c) (Proc.devRef .tc main_arg8) = _
  dsimp only [hostOps1]
  after_results_simp <;> rfl

theorem W3_arg10 (c : Dev nD) : W3 m ρ c (Proc.devRef .tc main_arg10) = (W2 m ρ c (Proc.devRef .tc main_arg10)) := by
  show StableHlo.after hostOps1 (W2 m ρ c) (Proc.devRef .tc main_arg10) = _
  dsimp only [hostOps1]
  after_results_simp <;> rfl

theorem W3_v42_0 (c : Dev nD) : W3 m ρ c (Proc.devRef .tc main_v42_0) = (W2 m ρ c (Proc.devRef .tc main_v42_0)) := by
  show StableHlo.after hostOps1 (W2 m ρ c) (Proc.devRef .tc main_v42_0) = _
  dsimp only [hostOps1]
  after_results_simp <;> rfl

end Cert.KernelIdeal.HostValue

end
-- ==== Proof.Spec.lean ====
/-
  The layer as mathematics, one edge and one node at a time, on the extended reals.

  For an edge with endpoint features `hr hc : Fin 128 → EReal` and coordinate difference `d : Fin 3 → EReal`:
    r      = Σ_k d_k · d_k                                         (squared length)
    pre_j  = Σ_k hr_k · Wa_kj + Σ_k hc_k · Wb_kj + r · wc_j + b_j    (first edge layer, the 257 input columns in three groups)
    feat_j = silu (Σ_k silu(pre_k) · W2_kj + b2_j)                   (edge feature)
    s      = Σ_k silu (Σ_l feat_l · Wc_lk + bc_k) · wc2_k            (one scalar per edge)
    trans  = d · s
  and for a node with features `h`, aggregated edge features `agg`, coordinates `x`, summed translations `t`
  and in-degree `n`:
    hnew_j = h_j + (Σ_k silu (Σ_l h_l · Na_lk + Σ_l agg_l · Nb_lk + c_k) · N2_kj + c2_j)
    xnew   = x + t / max n 1.
  `silu x = x · logistic x` with `logistic x = 1 / (1 + e^(-x))` read on the extended reals.
  Nothing here mentions a program; both programs are read down to these functions.
-/
import Idealize.ShloMosaic.PureOps.Ideal
import Idealize.ShloMosaic.Lib.ValueIdx

noncomputable section

namespace Cert.Egcl

open Idealize.ShloMosaic

/-- `x · logistic x`. -/
def silu (x : EReal) : EReal := x * Ideal.logistic x

/-- The squared length of a 3-vector. -/
def sqLen (d : Fin 3 → EReal) : EReal := ∑ k : Fin 3, d k * d k

/-- One dense layer over 128 inputs: `Σ_k x_k · W_kj + b_j`. -/
def dense (x : Fin 128 → EReal) (W : Fin 128 → Fin 128 → EReal) (b : Fin 128 → EReal) (j : Fin 128) : EReal :=
  (∑ k : Fin 128, x k * W k j) + b j

/-- The first edge layer before its activation, the 257 input columns taken in their three groups. -/
def edgePre (hr hc : Fin 128 → EReal) (d : Fin 3 → EReal) (Wa Wb : Fin 128 → Fin 128 → EReal)
    (wc b : Fin 128 → EReal) (j : Fin 128) : EReal :=
  (((∑ k : Fin 128, hr k * Wa k j) + (∑ k : Fin 128, hc k * Wb k j)) + sqLen d * wc j) + b j

/-- The edge feature. -/
def edgeFeat (hr hc : Fin 128 → EReal) (d : Fin 3 → EReal) (Wa Wb : Fin 128 → Fin 128 → EReal)
    (wc b : Fin 128 → EReal) (W2 : Fin 128 → Fin 128 → EReal) (b2 : Fin 128 → EReal) (j : Fin 128) : EReal :=
  silu (dense (fun k => silu (edgePre hr hc d Wa Wb wc b k)) W2 b2 j)

/-- The scalar by which an edge's coordinate difference is scaled. -/
def coordScale (feat : Fin 128 → EReal) (Wc : Fin 128 → Fin 128 → EReal) (bc wc2 : Fin 128 → EReal) : EReal :=
  ∑ k : Fin 128, silu (dense feat Wc bc k) * wc2 k

/-- The first node layer before its activation, the 256 input columns in their two groups. -/
def nodePre (h agg : Fin 128 → EReal) (Na Nb : Fin 128 → Fin 128 → EReal) (c : Fin 128 → EReal) (j : Fin 128) : EReal :=
  ((∑ k : Fin 128, h k * Na k j) + (∑ k : Fin 128, agg k * Nb k j)) + c j

/-- The node's new feature: the residual plus the second node layer. -/
def nodeOut (h agg : Fin 128 → EReal) (Na Nb : Fin 128 → Fin 128 → EReal) (c : Fin 128 → EReal)
    (N2 : Fin 128 → Fin 128 → EReal) (c2 : Fin 128 → EReal) (j : Fin 128) : EReal :=
  h j + dense (fun k => silu (nodePre h agg Na Nb c k)) N2 c2 j

/-- The node's new coordinate: the mean translation added. -/
def coordOut (x t n : EReal) : EReal := x + Ideal.div t (max n 1)

/-- A sum over 256 terms is the sum of its first 128 and its next 128. -/
theorem sum_256 (f : Fin 256 → EReal) :
    ∑ k : Fin 256, f k = (∑ k : Fin 128, f ⟨k.val, by omega⟩) + (∑ k : Fin 128, f ⟨128 + k.val, by omega⟩) := by
  exact Fin.sum_univ_add (a := 128) (b := 128) f

/-- A sum over 257 terms is the sum of its first 128, its next 128 and its last term. -/
theorem sum_257 (f : Fin 257 → EReal) :
    ∑ k : Fin 257, f k
      = ((∑ k : Fin 128, f ⟨k.val, by omega⟩) + (∑ k : Fin 128, f ⟨128 + k.val, by omega⟩)) + f ⟨256, by omega⟩ := by
  rw [Fin.sum_univ_castSucc (n := 256) f, sum_256 (fun k => f (Fin.castSucc k))]
  rfl

end Cert.Egcl

end
-- ==== Proof.EdgePayload.lean ====
/-
  The edge body's arithmetic at one row and one column.

  The body works on a block of 6000 edges: two 128-wide matrix products (the endpoint features against the two
  halves of the first layer's weights), the squared length of the coordinate difference spread over the columns against
  the weights' last row, a bias, `silu`; then two more dense layers with `silu`, and a product with a 128×1 matrix.
  Every operation is row by row, so each entry of the block's results depends on ONE row of each per-edge
  operand: that row's entry is the specification's `edgeFeat` (and, for the translation, the coordinate difference
  times `coordScale` of the row's edge features). A change of float format is the identity on the extended reals.
-/
import proofs.«129493_j21560735826057_2_alg».proof.Proof.Gen.KernelIdeal.Skeleton
import proofs.«129493_j21560735826057_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.ValueIdx

/-- A block of rows times a 128×128 matrix into the zero accumulator: entry (r, j) is the sum over k of row r at k times the matrix at (k, j). -/
theorem matmul_row {φ₁ φ₂ : FTy} (l : FVec Ideal S6000x128 φ₁) (w : FVec Ideal S128x128 φ₂) (r : Fin 6000) (j : Fin 128) :
    matmul dot_S6000x128_S128x128_S6000x128_1_0_0_1_n_n none l w (constant S6000x128 .f32 0x00000000#32) (ix2 r j)
      = ∑ k : Fin 128, l (ix2 r k) * w (ix2 k j) := by
  simp only [matmul]
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 r j) ((contrEquiv1 dot_S6000x128_S128x128_S6000x128_1_0_0_1_n_n 128 rfl rfl).symm k) = ix2 r k :=
    funext fun a => Fin.ext (by
      match a with
      | ⟨0, _⟩ =>
        show (dot_S6000x128_S128x128_S6000x128_1_0_0_1_n_n.lhsIdx (ix2 r j) _ 0).val = r.val
        unfold DotDims.lhsIdx
        rw [dif_neg (show ¬(0 : Fin S6000x128.rank) ∈ dot_S6000x128_S128x128_S6000x128_1_0_0_1_n_n.lhsBatch by decide),
          dif_pos (show (0 : Fin S6000x128.rank) ∈ dot_S6000x128_S128x128_S6000x128_1_0_0_1_n_n.lhsNonContracting by decide)]
        rfl
      | ⟨1, _⟩ => exact (dot_S6000x128_S128x128_S6000x128_1_0_0_1_n_n.lhsIdx_val_of_single rfl (ix2 r j) _).trans hk)
  have er : dot_S6000x128_S128x128_S6000x128_1_0_0_1_n_n.rhsIdx (ix2 r j) ((contrEquiv1 dot_S6000x128_S128x128_S6000x128_1_0_0_1_n_n 128 rfl rfl).symm k) = ix2 k j :=
    funext fun a => Fin.ext (by
      match a with
      | ⟨0, _⟩ => exact (dot_S6000x128_S128x128_S6000x128_1_0_0_1_n_n.rhsIdx_val_of_single rfl (ix2 r j) _).trans hk
      | ⟨1, _⟩ =>
        show (dot_S6000x128_S128x128_S6000x128_1_0_0_1_n_n.rhsIdx (ix2 r j) _ 1).val = _
        unfold DotDims.rhsIdx
        rw [dif_neg (show ¬(1 : Fin S128x128.rank) ∈ dot_S6000x128_S128x128_S6000x128_1_0_0_1_n_n.rhsBatch by decide),
          dif_pos (show (1 : Fin S128x128.rank) ∈ dot_S6000x128_S128x128_S6000x128_1_0_0_1_n_n.rhsNonContracting by decide)]
        rfl)
  rw [el, er]

/-- A block of rows times a 128×1 matrix into the zero accumulator: entry (r, 0) is the sum over k of row r at k times the column at k. -/
theorem matmul_col {φ₁ φ₂ : FTy} (l : FVec Ideal S6000x128 φ₁) (w : FVec Ideal S128x1 φ₂) (r : Fin 6000)  :
    matmul dot_S6000x128_S128x1_S6000x1_1_0_0_1_n_n none l w (constant S6000x1 .f32 0x00000000#32) (ix2 r (0 : Fin 1))
      = ∑ k : Fin 128, l (ix2 r k) * w (ix2 k (0 : Fin 1)) := by
  simp only [matmul]
  rw [Ideal.matmul_constant_zero_apply, ← Equiv.sum_comp (contrEquiv1 dot_S6000x128_S128x1_S6000x1_1_0_0_1_n_n 128 rfl rfl).symm]
  refine Finset.sum_congr rfl fun k _ => ?_
  have hk := contrEquiv1_symm_val dot_S6000x128_S128x1_S6000x1_1_0_0_1_n_n 128 rfl rfl k
  have el : dot_S6000x128_S128x1_S6000x1_1_0_0_1_n_n.lhsIdx (ix2 r (0 : Fin 1)) ((contrEquiv1 dot_S6000x128_S128x1_S6000x1_1_0_0_1_n_n 128 rfl rfl).symm k) = ix2 r k :=
    funext fun a => Fin.ext (by
      match a with
      | ⟨0, _⟩ =>
        show (dot_S6000x128_S128x1_S6000x1_1_0_0_1_n_n.lhsIdx (ix2 r (0 : Fin 1)) _ 0).val = r.val
        unfold DotDims.lhsIdx
        rw [dif_neg (show ¬(0 : Fin S6000x128.rank) ∈ dot_S6000x128_S128x1_S6000x1_1_0_0_1_n_n.lhsBatch by decide),
          dif_pos (show (0 : Fin S6000x128.rank) ∈ dot_S6000x128_S128x1_S6000x1_1_0_0_1_n_n.lhsNonContracting by decide)]
        rfl
      | ⟨1, _⟩ => exact (dot_S6000x128_S128x1_S6000x1_1_0_0_1_n_n.lhsIdx_val_of_single rfl (ix2 r (0 : Fin 1)) _).trans hk)
  have er : dot_S6000x128_S128x1_S6000x1_1_0_0_1_n_n.rhsIdx (ix2 r (0 : Fin 1)) ((contrEquiv1 dot_S6000x128_S128x1_S6000x1_1_0_0_1_n_n 128 rfl rfl).symm k) = ix2 k (0 : Fin 1) :=
    funext fun a => Fin.ext (by
      match a with
      | ⟨0, _⟩ => exact (dot_S6000x128_S128x1_S6000x1_1_0_0_1_n_n.rhsIdx_val_of_single rfl (ix2 r (0 : Fin 1)) _).trans hk
      | ⟨1, _⟩ =>
        show (dot_S6000x128_S128x1_S6000x1_1_0_0_1_n_n.rhsIdx (ix2 r (0 : Fin 1)) _ 1).val = _
        unfold DotDims.rhsIdx
        rw [dif_neg (show ¬(1 : Fin S128x1.rank) ∈ dot_S6000x128_S128x1_S6000x1_1_0_0_1_n_n.rhsBatch by decide),
          dif_pos (show (1 : Fin S128x1.rank) ∈ dot_S6000x128_S128x1_S6000x1_1_0_0_1_n_n.rhsNonContracting by decide)]
        rfl)
  rw [el, er]

/-- The logistic function of a vector is entry by entry. -/
theorem logistic_apply {s : Shape} {φ : FTy} (v : FVec Ideal s φ) (i : s.Idx) : logistic v i = Ideal.logistic (v i) := rfl

/-- A 6000-vector kept as a column and spread over 128 columns: entry (r, j) is the vector at r. -/
theorem spread_col (q : FVec Ideal S6000 .f32) (r : Fin 6000) (j : Fin 128) :
    broadcastTo S6000x128 (shapeCast S6000x1 q shapeCasts_S6000_S6000x1) broadcasts_S6000x1_S6000x128 (ix2 r j) = q (ix1 r) := by
  refine (broadcastTo_apply _ broadcasts_S6000x1_S6000x128 (ix2 r j) (ix2 r (0 : Fin 1)) (fun a => ?_)).trans ?_
  · match a with
    | ⟨0, _⟩ => show r.val = if (6000 : Nat) = 1 then 0 else r.val; rw [if_neg (by decide)]
    | ⟨1, _⟩ => show 0 = if (1 : Nat) = 1 then 0 else j.val; rw [if_pos rfl]
  exact shapeCast_apply _ shapeCasts_S6000_S6000x1 (ix2 r (0 : Fin 1)) (ix1 r) (by
    rw [Shape.rowMajor_val_one, Shape.rowMajor_val_two]; show r.val = r.val * 1 + 0; omega)

/-- The sum along the 3 coordinates of row r. -/
theorem lanesum (v : FVec Ideal S6000x3 .f32) (hφ : FTy.f32 = FTy.f32 ∨ FTy.f32 = FTy.bf16)
    (hacc : (0x00000000#32 : BitVec 32) = 0x00000000#32) (r : Fin 6000) :
    multiReduction .add [1] S6000 v 0x00000000#32 reduces_S6000x3_S6000 hφ hacc (ix1 r) = ∑ k : Fin 3, v (ix2 r k) := by
  refine (Ideal.multiReduction_add_single v 0x00000000#32 reduces_S6000x3_S6000 hφ hacc (ix1 r)).trans ?_
  refine Finset.sum_congr rfl fun k _ => congrArg v (funext fun a => Fin.ext ?_)
  match a with
  | ⟨0, _⟩ => rfl
  | ⟨1, _⟩ => rfl

/-- A 128-vector as one row, spread over the block's rows: entry (r, j) is the vector at j. -/
theorem bias_spread (b : FVec Ideal S128 .f32) (r : Fin 6000) (j : Fin 128) :
    broadcastTo S6000x128 (shapeCast S1x128 b shapeCasts_S128_S1x128) broadcasts_S1x128_S6000x128 (ix2 r j) = b (ix1 j) :=
  (broadcastTo_1b_ab_apply _ broadcasts_S1x128_S6000x128 r j).trans
    (shapeCast_a_1a_apply b shapeCasts_S128_S1x128 (0 : Fin 1) j)

/-- A 128-vector as one row, read at (0, j). -/
theorem as_row (b : FVec Ideal S128 .f32) (j : Fin 128) :
    shapeCast S1x128 b shapeCasts_S128_S1x128 (ix2 (0 : Fin 1) j) = b (ix1 j) :=
  shapeCast_a_1a_apply b shapeCasts_S128_S1x128 (0 : Fin 1) j

/-- A 1×128 array spread over the block's rows: entry (r, j) is its one row at j. -/
theorem row_spread (w : FVec Ideal S1x128 .f32) (r : Fin 6000) (j : Fin 128) :
    broadcastTo S6000x128 w broadcasts_S1x128_S6000x128 (ix2 r j) = w (ix2 (0 : Fin 1) j) :=
  broadcastTo_1b_ab_apply w broadcasts_S1x128_S6000x128 r j

/-- A column spread over 3 columns: entry (r, c) is the column at r. -/
theorem col_spread (w : FVec Ideal S6000x1 .f32) (r : Fin 6000) (c : Fin 3) :
    broadcastTo S6000x3 w broadcasts_S6000x1_S6000x3 (ix2 r c) = w (ix2 r (0 : Fin 1)) := by
  refine broadcastTo_apply w broadcasts_S6000x1_S6000x3 (ix2 r c) (ix2 r (0 : Fin 1)) (fun a => ?_)
  match a with
  | ⟨0, _⟩ => show r.val = if (6000 : Nat) = 1 then 0 else r.val; rw [if_neg (by decide)]
  | ⟨1, _⟩ => show 0 = if (1 : Nat) = 1 then 0 else c.val; rw [if_pos rfl]

/-- The stored edge-feature block at row r, column j is the specification's edge feature of row r of each per-edge
    operand. -/
theorem edge_feat_entry (v0 v2 : Vec Ideal S6000x128 .bf16) (v4 : Vec Ideal S6000x3 .f32) (v9 v12 : Vec Ideal S128x128 .bf16)
    (v16 : Vec Ideal S1x128 .f32) (v22 : Vec Ideal S128 .f32) (v29 : Vec Ideal S128x128 .bf16) (v32 : Vec Ideal S128 .f32)
    (r : Fin 6000) (j : Fin 128) :
    k0_pay3 v0 v2 v4 v9 v12 v16 v22 v29 v32 (ix2 r j)
      = Cert.Egcl.edgeFeat (fun k => v0 (ix2 r k)) (fun k => v2 (ix2 r k)) (fun k => v4 (ix2 r k))
          (fun k j => v9 (ix2 k j)) (fun k j => v12 (ix2 k j)) (fun j => v16 (ix2 (0 : Fin 1) j)) (fun j => v22 (ix1 j))
          (fun k j => v29 (ix2 k j)) (fun j => v32 (ix1 j)) j := by
  unfold k0_pay3 k0_pay2
  simp only [shapeCast_self, mulf_apply, addf_apply, truncf_apply, logistic_apply, matmul_row, spread_col, bias_spread, row_spread, as_row]
  rw [lanesum (mulf v4 v4) _ _ r]
  simp only [mulf_apply]
  rfl

/-- The stored translation block at row r, coordinate c is the coordinate difference there times the specification's
    scale of row r of the edge features. -/
theorem trans_entry (v5 : FVec Ideal S6000x3 .f32) (v37 : FVec Ideal S6000x128 .f32) (v40 : Vec Ideal S128x128 .bf16)
    (v43 : Vec Ideal S128 .f32) (v50 : Vec Ideal S128x1 .bf16) (r : Fin 6000) (c : Fin 3) :
    k0_pay1 v5 v37 v40 v43 v50 (ix2 r c)
      = v5 (ix2 r c) * Cert.Egcl.coordScale (fun k => v37 (ix2 r k)) (fun l k => v40 (ix2 l k)) (fun k => v43 (ix1 k))
          (fun k => v50 (ix2 k (0 : Fin 1))) := by
  unfold k0_pay1
  simp only [shapeCast_self, mulf_apply, addf_apply, truncf_apply, logistic_apply, matmul_row, matmul_col, col_spread, bias_spread, row_spread, as_row]
  rfl

/-- The same at any index of the block, its two coordinates read off. -/
theorem edge_feat_at (v0 v2 : Vec Ideal S6000x128 .bf16) (v4 : Vec Ideal S6000x3 .f32) (v9 v12 : Vec Ideal S128x128 .bf16)
    (v16 : Vec Ideal S1x128 .f32) (v22 : Vec Ideal S128 .f32) (v29 : Vec Ideal S128x128 .bf16) (v32 : Vec Ideal S128 .f32)
    (y : S6000x128.Idx) :
    k0_pay3 v0 v2 v4 v9 v12 v16 v22 v29 v32 y
      = Cert.Egcl.edgeFeat (fun k => v0 (ix2 ⟨(y 0).val, (y 0).isLt⟩ k)) (fun k => v2 (ix2 ⟨(y 0).val, (y 0).isLt⟩ k))
          (fun k => v4 (ix2 ⟨(y 0).val, (y 0).isLt⟩ k))
          (fun k j => v9 (ix2 k j)) (fun k j => v12 (ix2 k j)) (fun j => v16 (ix2 (0 : Fin 1) j)) (fun j => v22 (ix1 j))
          (fun k j => v29 (ix2 k j)) (fun j => v32 (ix1 j)) ⟨(y 1).val, (y 1).isLt⟩ := by
  obtain ⟨r, j, rfl⟩ : ∃ (r : Fin 6000) (j : Fin 128), y = ix2 r j := ⟨y 0, y 1, eq_ix2 y⟩
  exact edge_feat_entry v0 v2 v4 v9 v12 v16 v22 v29 v32 r j

/-- The translation block at any index, with the edge features it is computed from spelt out: the coordinate difference
    there times the scale of that row's edge features. -/
theorem trans_at (v0 v2 : Vec Ideal S6000x128 .bf16) (v4 : Vec Ideal S6000x3 .f32) (v9 v12 : Vec Ideal S128x128 .bf16)
    (v16 : Vec Ideal S1x128 .f32) (v22 : Vec Ideal S128 .f32) (v29 : Vec Ideal S128x128 .bf16) (v32 : Vec Ideal S128 .f32)
    (v40 : Vec Ideal S128x128 .bf16) (v43 : Vec Ideal S128 .f32) (v50 : Vec Ideal S128x1 .bf16) (y : S6000x3.Idx) :
    k0_pay1 (k0_pay2 v4) (k0_pay3 v0 v2 v4 v9 v12 v16 v22 v29 v32) v40 v43 v50 y
      = v4 y * Cert.Egcl.coordScale
          (fun k => Cert.Egcl.edgeFeat (fun k => v0 (ix2 ⟨(y 0).val, (y 0).isLt⟩ k)) (fun k => v2 (ix2 ⟨(y 0).val, (y 0).isLt⟩ k))
            (fun k => v4 (ix2 ⟨(y 0).val, (y 0).isLt⟩ k))
            (fun k j => v9 (ix2 k j)) (fun k j => v12 (ix2 k j)) (fun j => v16 (ix2 (0 : Fin 1) j)) (fun j => v22 (ix1 j))
            (fun k j => v29 (ix2 k j)) (fun j => v32 (ix1 j)) k)
          (fun l k => v40 (ix2 l k)) (fun k => v43 (ix1 k)) (fun k => v50 (ix2 k (0 : Fin 1))) := by
  obtain ⟨r, c, rfl⟩ : ∃ (r : Fin 6000) (c : Fin 3), y = ix2 r c := ⟨y 0, y 1, eq_ix2 y⟩
  refine (trans_entry _ _ v40 v43 v50 r c).trans ?_
  have h5 : k0_pay2 v4 (ix2 r c) = v4 (ix2 r c) := by unfold k0_pay2; rw [shapeCast_self]
  rw [h5]
  refine congrArg (v4 (ix2 r c) * ·) ?_
  refine congrArg (fun f => Cert.Egcl.coordScale f _ _ _) (funext fun k => ?_)
  exact edge_feat_entry v0 v2 v4 v9 v12 v16 v22 v29 v32 r k

end Cert.KernelIdeal.EdgeValue

end
-- ==== Proof.EdgeRegion.lean ====
/-
  The edge region's two output arrays as whole-array functions of the arrays the region is entered with.

  The region runs the edge body at 100 points; point `t` stages rows `[6000·t, 6000·t + 6000)` of the three per-edge
  operands and all of every weight and bias, and writes back rows `[6000·t, 6000·t + 6000)` of both outputs. Each
  output entry depends on one row of the per-edge operands, so what point `t` writes back is block `t` of ONE function
  of the whole arrays; the 100 blocks tile the 600000 rows, so after the region the arrays hold that function.
-/
import proofs.«129493_j21560735826057_2_alg».proof.Proof.Gen.KernelIdeal.Frame
import proofs.«129493_j21560735826057_2_alg».proof.Proof.EdgePayload

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

/-- The edge features of all 600000 edges as one function of the gathered endpoint features, the coordinate
    differences and the first two layers' weights and biases. -/
def featArr (A0 A1 : S600000x128.Idx → EReal) (A2 : S600000x3.Idx → EReal) (A3 A4 : S128x128.Idx → EReal)
    (A5 : S1x128.Idx → EReal) (A6 : S128.Idx → EReal) (A7 : S128x128.Idx → EReal) (A8 : S128.Idx → EReal) :
    S600000x128.Idx → EReal := fun i =>
  Cert.Egcl.edgeFeat (fun k => A0 (ix2 ⟨(i 0).val, (i 0).isLt⟩ k)) (fun k => A1 (ix2 ⟨(i 0).val, (i 0).isLt⟩ k))
    (fun k => A2 (ix2 ⟨(i 0).val, (i 0).isLt⟩ k))
    (fun k j => A3 (ix2 k j)) (fun k j => A4 (ix2 k j)) (fun j => A5 (ix2 (0 : Fin 1) j)) (fun j => A6 (ix1 j))
    (fun k j => A7 (ix2 k j)) (fun j => A8 (ix1 j)) ⟨(i 1).val, (i 1).isLt⟩

/-- The translations of all edges: the coordinate difference times the scale of the edge's features. -/
def transArr (A0 A1 : S600000x128.Idx → EReal) (A2 : S600000x3.Idx → EReal) (A3 A4 : S128x128.Idx → EReal)
    (A5 : S1x128.Idx → EReal) (A6 : S128.Idx → EReal) (A7 : S128x128.Idx → EReal) (A8 : S128.Idx → EReal)
    (A9 : S128x128.Idx → EReal) (A10 : S128.Idx → EReal) (A11 : S128x1.Idx → EReal) : S600000x3.Idx → EReal := fun i =>
  A2 i * Cert.Egcl.coordScale
    (fun k => Cert.Egcl.edgeFeat (fun k => A0 (ix2 ⟨(i 0).val, (i 0).isLt⟩ k)) (fun k => A1 (ix2 ⟨(i 0).val, (i 0).isLt⟩ k))
      (fun k => A2 (ix2 ⟨(i 0).val, (i 0).isLt⟩ k))
      (fun k j => A3 (ix2 k j)) (fun k j => A4 (ix2 k j)) (fun j => A5 (ix2 (0 : Fin 1) j)) (fun j => A6 (ix1 j))
      (fun k j => A7 (ix2 k j)) (fun j => A8 (ix1 j)) k)
    (fun l k => A9 (ix2 l k)) (fun k => A10 (ix1 k)) (fun k => A11 (ix2 k (0 : Fin 1)))

/-- The edge-feature array at row e, column k is the edge feature of row e of the per-edge arrays. -/
theorem featArr_ix2 (A0 A1 : S600000x128.Idx → EReal) (A2 : S600000x3.Idx → EReal) (A3 A4 : S128x128.Idx → EReal)
    (A5 : S1x128.Idx → EReal) (A6 : S128.Idx → EReal) (A7 : S128x128.Idx → EReal) (A8 : S128.Idx → EReal)
    (e : Fin 600000) (k : Fin 128) :
    featArr A0 A1 A2 A3 A4 A5 A6 A7 A8 (ix2 e k)
      = Cert.Egcl.edgeFeat (fun k => A0 (ix2 e k)) (fun k => A1 (ix2 e k)) (fun k => A2 (ix2 e k))
          (fun k j => A3 (ix2 k j)) (fun k j => A4 (ix2 k j)) (fun j => A5 (ix2 (0 : Fin 1) j)) (fun j => A6 (ix1 j))
          (fun k j => A7 (ix2 k j)) (fun j => A8 (ix1 j)) k := rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the per-edge windows and the outputs sit at row block `t`, every weight and
    bias window at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

set_option maxHeartbeats 4000000 in
/-- What point `t` writes back to the edge-feature array is block `t` of `featArr` of the entry arrays. -/
theorem flushed_feat (c : Dev nD) (t : Fin cfg0.N) :
    (dat0 (F := Ideal) V c).flushed 12 t = ((cfg0.win 12).blk t).view.read (Elt Ideal)
      (featArr (V c main_v11) (V c main_v18) (V c main_v33) (V c main_v35) (V c main_v37) (V c main_v38) (V c main_arg4)
        (V c main_v39) (V c main_arg6)) := by
  show (cfg0.win 12).cut (grid0.coords t) ((dat0 V c).after 12 t) = _
  rw [after0_12]
  unfold out0_12
  rw [View.canon_unit_zero hz2]
  simp only [View.ld_unit_zero (S := S6000x128) hz2, View.ld_unit_zero (S := S6000x3) hz2, View.ld_unit_zero (S := S128x128) hz2,
    View.ld_unit_zero (S := S1x128) hz2, View.ld_unit_zero (S := S128) hz1]
  obtain ⟨⟨a0, b0⟩, ⟨a1, b1⟩, ⟨a2, b2⟩, ⟨a3, b3⟩, ⟨a4, b4⟩, ⟨a5, b5⟩, a6, ⟨a7, b7⟩, a8, ⟨a9, b9⟩, a10, ⟨a11, b11⟩, ⟨a12, b12⟩, ⟨a13, b13⟩⟩ := idx_facts t
  funext y
  show k0_pay3 (iblk0 V c 0 t) (iblk0 V c 1 t) (iblk0 V c 2 t) (iblk0 V c 3 t) (iblk0 V c 4 t) (iblk0 V c 5 t) (iblk0 V c 6 t)
      (iblk0 V c 7 t) (iblk0 V c 8 t) y = featArr (V c main_v11) (V c main_v18) (V c main_v33) (V c main_v35) (V c main_v37)
      (V c main_v38) (V c main_arg4) (V c main_v39) (V c main_arg6) (((cfg0.win 12).blk t).view.emb y)
  refine (edge_feat_at _ _ _ _ _ _ _ _ _ y).trans ?_
  have hy0 : (y 0).val < 6000 := (y 0).isLt
  have hy1 : (y 1).val < 128 := (y 1).isLt
  have e0 : ∀ k : Fin 128, iblk0 V c 0 t (ix2 ⟨(y 0).val, (y 0).isLt⟩ k) = V c main_v11 (ix2 ⟨((((cfg0.win 12).blk t).view.emb y) 0).val, ((((cfg0.win 12).blk t).view.emb y) 0).isLt⟩ k) := fun k => by
    show V c main_v11 (((cfg0.win 0).blk t).view.emb (ix2 ⟨(y 0).val, (y 0).isLt⟩ k)) = _
    refine congrArg (V c main_v11) (funext fun a => Fin.ext ?_)
    match a with
    | ⟨0, _⟩ => show win0_0.index t (0 : Fin 2) * 6000 + 1 * (y 0).val = win0_12.index t (0 : Fin 2) * 6000 + 1 * (y 0).val; omega
    | ⟨1, _⟩ => show win0_0.index t (1 : Fin 2) * 128 + 1 * k.val = k.val; omega
  have e1 : ∀ k : Fin 128, iblk0 V c 1 t (ix2 ⟨(y 0).val, (y 0).isLt⟩ k) = V c main_v18 (ix2 ⟨((((cfg0.win 12).blk t).view.emb y) 0).val, ((((cfg0.win 12).blk t).view.emb y) 0).isLt⟩ k) := fun k => by
    show V c main_v18 (((cfg0.win 1).blk t).view.emb (ix2 ⟨(y 0).val, (y 0).isLt⟩ k)) = _
    refine congrArg (V c main_v18) (funext fun a => Fin.ext ?_)
    match a with
    | ⟨0, _⟩ => show win0_1.index t (0 : Fin 2) * 6000 + 1 * (y 0).val = win0_12.index t (0 : Fin 2) * 6000 + 1 * (y 0).val; omega
    | ⟨1, _⟩ => show win0_1.index t (1 : Fin 2) * 128 + 1 * k.val = k.val; omega
  have e2 : ∀ k : Fin 3, iblk0 V c 2 t (ix2 ⟨(y 0).val, (y 0).isLt⟩ k) = V c main_v33 (ix2 ⟨((((cfg0.win 12).blk t).view.emb y) 0).val, ((((cfg0.win 12).blk t).view.emb y) 0).isLt⟩ k) := fun k => by
    show V c main_v33 (((cfg0.win 2).blk t).view.emb (ix2 ⟨(y 0).val, (y 0).isLt⟩ k)) = _
    refine congrArg (V c main_v33) (funext fun a => Fin.ext ?_)
    match a with
    | ⟨0, _⟩ => show win0_2.index t (0 : Fin 2) * 6000 + 1 * (y 0).val = win0_12.index t (0 : Fin 2) * 6000 + 1 * (y 0).val; omega
    | ⟨1, _⟩ => show win0_2.index t (1 : Fin 2) * 3 + 1 * k.val = k.val; omega
  have e3 : ∀ (k : Fin 128) (j : Fin 128), iblk0 V c 3 t (ix2 k j) = V c main_v35 (ix2 k j) := fun k j => by
    show V c main_v35 (((cfg0.win 3).blk t).view.emb (ix2 k j)) = _
    refine congrArg (V c main_v35) (funext fun a => Fin.ext ?_)
    match a with
    | ⟨0, _⟩ => show win0_3.index t (0 : Fin 2) * 128 + 1 * (k : Fin 128).val = (k : Fin 128).val; omega
    | ⟨1, _⟩ => show win0_3.index t (1 : Fin 2) * 128 + 1 * (j : Fin 128).val = (j : Fin 128).val; omega
  have e4 : ∀ (k : Fin 128) (j : Fin 128), iblk0 V c 4 t (ix2 k j) = V c main_v37 (ix2 k j) := fun k j => by
    show V c main_v37 (((cfg0.win 4).blk t).view.emb (ix2 k j)) = _
    refine congrArg (V c main_v37) (funext fun a => Fin.ext ?_)
    match a with
    | ⟨0, _⟩ => show win0_4.index t (0 : Fin 2) * 128 + 1 * (k : Fin 128).val = (k : Fin 128).val; omega
    | ⟨1, _⟩ => show win0_4.index t (1 : Fin 2) * 128 + 1 * (j : Fin 128).val = (j : Fin 128).val; omega
  have e5 : ∀ (j : Fin 128), iblk0 V c 5 t (ix2 (0 : Fin 1) j) = V c main_v38 (ix2 (0 : Fin 1) j) := fun j => by
    show V c main_v38 (((cfg0.win 5).blk t).view.emb (ix2 (0 : Fin 1) j)) = _
    refine congrArg (V c main_v38) (funext fun a => Fin.ext ?_)
    match a with
    | ⟨0, _⟩ => show win0_5.index t (0 : Fin 2) * 1 + 1 * ((0 : Fin 1) : Fin 1).val = ((0 : Fin 1) : Fin 1).val; omega
    | ⟨1, _⟩ => show win0_5.index t (1 : Fin 2) * 128 + 1 * (j : Fin 128).val = (j : Fin 128).val; omega
  have e6 : ∀ j : Fin 128, iblk0 V c 6 t (ix1 j) = V c main_arg4 (ix1 j) := fun j => by
    show V c main_arg4 (((cfg0.win 6).blk t).view.emb (ix1 j)) = _
    refine congrArg (V c main_arg4) (funext fun a => Fin.ext ?_)
    match a with
    | ⟨0, _⟩ => show win0_6.index t (0 : Fin 1) * 128 + 1 * j.val = j.val; omega
  have e7 : ∀ (k : Fin 128) (j : Fin 128), iblk0 V c 7 t (ix2 k j) = V c main_v39 (ix2 k j) := fun k j => by
    show V c main_v39 (((cfg0.win 7).blk t).view.emb (ix2 k j)) = _
    refine congrArg (V c main_v39) (funext fun a => Fin.ext ?_)
    match a with
    | ⟨0, _⟩ => show win0_7.index t (0 : Fin 2) * 128 + 1 * (k : Fin 128).val = (k : Fin 128).val; omega
    | ⟨1, _⟩ => show win0_7.index t (1 : Fin 2) * 128 + 1 * (j : Fin 128).val = (j : Fin 128).val; omega
  have e8 : ∀ j : Fin 128, iblk0 V c 8 t (ix1 j) = V c main_arg6 (ix1 j) := fun j => by
    show V c main_arg6 (((cfg0.win 8).blk t).view.emb (ix1 j)) = _
    refine congrArg (V c main_arg6) (funext fun a => Fin.ext ?_)
    match a with
    | ⟨0, _⟩ => show win0_8.index t (0 : Fin 1) * 128 + 1 * j.val = j.val; omega
  have ej : (⟨(y 1).val, (y 1).isLt⟩ : Fin 128) = ⟨((((cfg0.win 12).blk t).view.emb y) 1).val, ((((cfg0.win 12).blk t).view.emb y) 1).isLt⟩ :=
    Fin.ext (by show (y 1).val = win0_12.index t (1 : Fin 2) * 128 + 1 * (y 1).val; omega)
  simp only [featArr, e0, e1, e2, e3, e4, e5, e6, e7, e8, ej]

/-- An index of the array is in point `t`'s block iff each coordinate is in the block's range on its axis. -/
theorem mem_blk_feat (t : Fin cfg0.N) (i : S600000x128.Idx) :
    i ∈ ((cfg0.win 12).blk t).view.set ↔ ∀ a : Fin 2, win0_12.index t a * S6000x128.size a ≤ (i a).val
      ∧ (i a).val < win0_12.index t a * S6000x128.size a + S6000x128.size a := by
  show i ∈ ((View.whole main_v42_0).slice (win0_12.rect t)).set ↔ _
  rw [View.set_slice_whole, Rect.mem_set_unit]
  exact Iff.rfl

/-- Every row lies in the block of the point `row / 6000`. -/
theorem cover_feat (i : S600000x128.Idx) :
    ∃ t : Fin cfg0.N, (cfg0.win 12).flush t = true ∧ i ∈ ((cfg0.win 12).blk t).view.set := by
  have hi0 : (i 0).val < 600000 := (i 0).isLt
  have hi1 : (i 1).val < 128 := (i 1).isLt
  have hN : grid0.N = 100 := N_0
  have ht : (i 0).val / 6000 < grid0.N := by omega
  refine ⟨⟨(i 0).val / 6000, ht⟩, flush0_12 _, ?_⟩
  rw [mem_blk_feat]
  obtain ⟨-, -, -, -, -, -, -, -, -, -, -, -, ⟨a12, b12⟩, ⟨a13, b13⟩⟩ := idx_facts ⟨(i 0).val / 6000, ht⟩
  have a12' : win0_12.index ⟨(i 0).val / 6000, ht⟩ (0 : Fin 2) = (i 0).val / 6000 := a12
  have a13' : win0_13.index ⟨(i 0).val / 6000, ht⟩ (0 : Fin 2) = (i 0).val / 6000 := a13
  intro a
  match a with
  | ⟨0, _⟩ =>
    show win0_12.index ⟨(i 0).val / 6000, ht⟩ (0 : Fin 2) * 6000 ≤ (i 0).val
      ∧ (i 0).val < win0_12.index ⟨(i 0).val / 6000, ht⟩ (0 : Fin 2) * 6000 + 6000
    omega
  | ⟨1, _⟩ =>
    show win0_12.index ⟨(i 0).val / 6000, ht⟩ (1 : Fin 2) * 128 ≤ (i 1).val
      ∧ (i 1).val < win0_12.index ⟨(i 0).val / 6000, ht⟩ (1 : Fin 2) * 128 + 128
    omega

/-- After the region the edge-feature array holds `featArr` of the arrays the region was entered with. -/
theorem feat_array (c : Dev nD) :
    (dat0 (F := Ideal) V c).arrAt 12 cfg0.N
      = featArr (V c main_v11) (V c main_v18) (V c main_v33) (V c main_v35) (V c main_v37) (V c main_v38) (V c main_arg4)
        (V c main_v39) (V c main_arg6) :=
  (dat0 V c).arrAt_eq_of_cover 12 _ (fun t _ => flushed_feat V c t) cover_feat

set_option maxHeartbeats 4000000 in
/-- What point `t` writes back to the translation array is block `t` of `transArr` of the entry arrays. -/
theorem flushed_trans (c : Dev nD) (t : Fin cfg0.N) :
    (dat0 (F := Ideal) V c).flushed 13 t = ((cfg0.win 13).blk t).view.read (Elt Ideal)
      (transArr (V c main_v11) (V c main_v18) (V c main_v33) (V c main_v35) (V c main_v37) (V c main_v38) (V c main_arg4)
        (V c main_v39) (V c main_arg6)
        (V c main_v40) (V c main_arg12) (V c main_v41)) := by
  show (cfg0.win 13).cut (grid0.coords t) ((dat0 V c).after 13 t) = _
  rw [after0_13]
  unfold out0_13
  rw [View.canon_unit_zero hz2]
  simp only [View.ld_unit_zero (S := S6000x128) hz2, View.ld_unit_zero (S := S6000x3) hz2, View.ld_unit_zero (S := S128x128) hz2,
    View.ld_unit_zero (S := S1x128) hz2, View.ld_unit_zero (S := S128) hz1, View.ld_unit_zero (S := S128x1) hz2]
  obtain ⟨⟨a0, b0⟩, ⟨a1, b1⟩, ⟨a2, b2⟩, ⟨a3, b3⟩, ⟨a4, b4⟩, ⟨a5, b5⟩, a6, ⟨a7, b7⟩, a8, ⟨a9, b9⟩, a10, ⟨a11, b11⟩, ⟨a12, b12⟩, ⟨a13, b13⟩⟩ := idx_facts t
  funext y
  show k0_pay1 (k0_pay2 (iblk0 V c 2 t)) (k0_pay3 (iblk0 V c 0 t) (iblk0 V c 1 t) (iblk0 V c 2 t) (iblk0 V c 3 t) (iblk0 V c 4 t)
      (iblk0 V c 5 t) (iblk0 V c 6 t) (iblk0 V c 7 t) (iblk0 V c 8 t)) (iblk0 V c 9 t) (iblk0 V c 10 t) (iblk0 V c 11 t) y
    = transArr (V c main_v11) (V c main_v18) (V c main_v33) (V c main_v35) (V c main_v37) (V c main_v38) (V c main_arg4)
        (V c main_v39) (V c main_arg6)
        (V c main_v40) (V c main_arg12) (V c main_v41) (((cfg0.win 13).blk t).view.emb y)
  refine (trans_at _ _ _ _ _ _ _ _ _ _ _ _ y).trans ?_
  have hy0 : (y 0).val < 6000 := (y 0).isLt
  have hy1 : (y 1).val < 3 := (y 1).isLt
  have e0 : ∀ k : Fin 128, iblk0 V c 0 t (ix2 ⟨(y 0).val, (y 0).isLt⟩ k) = V c main_v11 (ix2 ⟨((((cfg0.win 13).blk t).view.emb y) 0).val, ((((cfg0.win 13).blk t).view.emb y) 0).isLt⟩ k) := fun k => by
    show V c main_v11 (((cfg0.win 0).blk t).view.emb (ix2 ⟨(y 0).val, (y 0).isLt⟩ k)) = _
    refine congrArg (V c main_v11) (funext fun a => Fin.ext ?_)
    match a with
    | ⟨0, _⟩ => show win0_0.index t (0 : Fin 2) * 6000 + 1 * (y 0).val = win0_13.index t (0 : Fin 2) * 6000 + 1 * (y 0).val; omega
    | ⟨1, _⟩ => show win0_0.index t (1 : Fin 2) * 128 + 1 * k.val = k.val; omega
  have e1 : ∀ k : Fin 128, iblk0 V c 1 t (ix2 ⟨(y 0).val, (y 0).isLt⟩ k) = V c main_v18 (ix2 ⟨((((cfg0.win 13).blk t).view.emb y) 0).val, ((((cfg0.win 13).blk t).view.emb y) 0).isLt⟩ k) := fun k => by
    show V c main_v18 (((cfg0.win 1).blk t).view.emb (ix2 ⟨(y 0).val, (y 0).isLt⟩ k)) = _
    refine congrArg (V c main_v18) (funext fun a => Fin.ext ?_)
    match a with
    | ⟨0, _⟩ => show win0_1.index t (0 : Fin 2) * 6000 + 1 * (y 0).val = win0_13.index t (0 : Fin 2) * 6000 + 1 * (y 0).val; omega
    | ⟨1, _⟩ => show win0_1.index t (1 : Fin 2) * 128 + 1 * k.val = k.val; omega
  have e2 : ∀ k : Fin 3, iblk0 V c 2 t (ix2 ⟨(y 0).val, (y 0).isLt⟩ k) = V c main_v33 (ix2 ⟨((((cfg0.win 13).blk t).view.emb y) 0).val, ((((cfg0.win 13).blk t).view.emb y) 0).isLt⟩ k) := fun k => by
    show V c main_v33 (((cfg0.win 2).blk t).view.emb (ix2 ⟨(y 0).val, (y 0).isLt⟩ k)) = _
    refine congrArg (V c main_v33) (funext fun a => Fin.ext ?_)
    match a with
    | ⟨0, _⟩ => show win0_2.index t (0 : Fin 2) * 6000 + 1 * (y 0).val = win0_13.index t (0 : Fin 2) * 6000 + 1 * (y 0).val; omega
    | ⟨1, _⟩ => show win0_2.index t (1 : Fin 2) * 3 + 1 * k.val = k.val; omega
  have e3 : ∀ (k : Fin 128) (j : Fin 128), iblk0 V c 3 t (ix2 k j) = V c main_v35 (ix2 k j) := fun k j => by
    show V c main_v35 (((cfg0.win 3).blk t).view.emb (ix2 k j)) = _
    refine congrArg (V c main_v35) (funext fun a => Fin.ext ?_)
    match a with
    | ⟨0, _⟩ => show win0_3.index t (0 : Fin 2) * 128 + 1 * (k : Fin 128).val = (k : Fin 128).val; omega
    | ⟨1, _⟩ => show win0_3.index t (1 : Fin 2) * 128 + 1 * (j : Fin 128).val = (j : Fin 128).val; omega
  have e4 : ∀ (k : Fin 128) (j : Fin 128), iblk0 V c 4 t (ix2 k j) = V c main_v37 (ix2 k j) := fun k j => by
    show V c main_v37 (((cfg0.win 4).blk t).view.emb (ix2 k j)) = _
    refine congrArg (V c main_v37) (funext fun a => Fin.ext ?_)
    match a with
    | ⟨0, _⟩ => show win0_4.index t (0 : Fin 2) * 128 + 1 * (k : Fin 128).val = (k : Fin 128).val; omega
    | ⟨1, _⟩ => show win0_4.index t (1 : Fin 2) * 128 + 1 * (j : Fin 128).val = (j : Fin 128).val; omega
  have e5 : ∀ (j : Fin 128), iblk0 V c 5 t (ix2 (0 : Fin 1) j) = V c main_v38 (ix2 (0 : Fin 1) j) := fun j => by
    show V c main_v38 (((cfg0.win 5).blk t).view.emb (ix2 (0 : Fin 1) j)) = _
    refine congrArg (V c main_v38) (funext fun a => Fin.ext ?_)
    match a with
    | ⟨0, _⟩ => show win0_5.index t (0 : Fin 2) * 1 + 1 * ((0 : Fin 1) : Fin 1).val = ((0 : Fin 1) : Fin 1).val; omega
    | ⟨1, _⟩ => show win0_5.index t (1 : Fin 2) * 128 + 1 * (j : Fin 128).val = (j : Fin 128).val; omega
  have e6 : ∀ j : Fin 128, iblk0 V c 6 t (ix1 j) = V c main_arg4 (ix1 j) := fun j => by
    show V c main_arg4 (((cfg0.win 6).blk t).view.emb (ix1 j)) = _
    refine congrArg (V c main_arg4) (funext fun a => Fin.ext ?_)
    match a with
    | ⟨0, _⟩ => show win0_6.index t (0 : Fin 1) * 128 + 1 * j.val = j.val; omega
  have e7 : ∀ (k : Fin 128) (j : Fin 128), iblk0 V c 7 t (ix2 k j) = V c main_v39 (ix2 k j) := fun k j => by
    show V c main_v39 (((cfg0.win 7).blk t).view.emb (ix2 k j)) = _
    refine congrArg (V c main_v39) (funext fun a => Fin.ext ?_)
    match a with
    | ⟨0, _⟩ => show win0_7.index t (0 : Fin 2) * 128 + 1 * (k : Fin 128).val = (k : Fin 128).val; omega
    | ⟨1, _⟩ => show win0_7.index t (1 : Fin 2) * 128 + 1 * (j : Fin 128).val = (j : Fin 128).val; omega
  have e8 : ∀ j : Fin 128, iblk0 V c 8 t (ix1 j) = V c main_arg6 (ix1 j) := fun j => by
    show V c main_arg6 (((cfg0.win 8).blk t).view.emb (ix1 j)) = _
    refine congrArg (V c main_arg6) (funext fun a => Fin.ext ?_)
    match a with
    | ⟨0, _⟩ => show win0_8.index t (0 : Fin 1) * 128 + 1 * j.val = j.val; omega
  have e9 : ∀ (l : Fin 128) (k : Fin 128), iblk0 V c 9 t (ix2 l k) = V c main_v40 (ix2 l k) := fun l k => by
    show V c main_v40 (((cfg0.win 9).blk t).view.emb (ix2 l k)) = _
    refine congrArg (V c main_v40) (funext fun a => Fin.ext ?_)
    match a with
    | ⟨0, _⟩ => show win0_9.index t (0 : Fin 2) * 128 + 1 * (l : Fin 128).val = (l : Fin 128).val; omega
    | ⟨1, _⟩ => show win0_9.index t (1 : Fin 2) * 128 + 1 * (k : Fin 128).val = (k : Fin 128).val; omega
  have e10 : ∀ j : Fin 128, iblk0 V c 10 t (ix1 j) = V c main_arg12 (ix1 j) := fun j => by
    show V c main_arg12 (((cfg0.win 10).blk t).view.emb (ix1 j)) = _
    refine congrArg (V c main_arg12) (funext fun a => Fin.ext ?_)
    match a with
    | ⟨0, _⟩ => show win0_10.index t (0 : Fin 1) * 128 + 1 * j.val = j.val; omega
  have e11 : ∀ (k : Fin 128), iblk0 V c 11 t (ix2 k (0 : Fin 1)) = V c main_v41 (ix2 k (0 : Fin 1)) := fun k => by
    show V c main_v41 (((cfg0.win 11).blk t).view.emb (ix2 k (0 : Fin 1))) = _
    refine congrArg (V c main_v41) (funext fun a => Fin.ext ?_)
    match a with
    | ⟨0, _⟩ => show win0_11.index t (0 : Fin 2) * 128 + 1 * (k : Fin 128).val = (k : Fin 128).val; omega
    | ⟨1, _⟩ => show win0_11.index t (1 : Fin 2) * 1 + 1 * ((0 : Fin 1) : Fin 1).val = ((0 : Fin 1) : Fin 1).val; omega
  have ey : iblk0 V c 2 t y = V c main_v33 (((cfg0.win 13).blk t).view.emb y) := by
    show V c main_v33 (((cfg0.win 2).blk t).view.emb y) = _
    refine congrArg (V c main_v33) (funext fun a => Fin.ext ?_)
    match a with
    | ⟨0, _⟩ => show win0_2.index t (0 : Fin 2) * 6000 + 1 * (y 0).val = win0_13.index t (0 : Fin 2) * 6000 + 1 * (y 0).val; omega
    | ⟨1, _⟩ => show win0_2.index t (1 : Fin 2) * 3 + 1 * (y 1).val = win0_13.index t (1 : Fin 2) * 3 + 1 * (y 1).val; omega
  simp only [transArr, e0, e1, e2, e3, e4, e5, e6, e7, e8, e9, e10, e11, ey]

/-- An index of the array is in point `t`'s block iff each coordinate is in the block's range on its axis. -/
theorem mem_blk_trans (t : Fin cfg0.N) (i : S600000x3.Idx) :
    i ∈ ((cfg0.win 13).blk t).view.set ↔ ∀ a : Fin 2, win0_13.index t a * S6000x3.size a ≤ (i a).val
      ∧ (i a).val < win0_13.index t a * S6000x3.size a + S6000x3.size a := by
  show i ∈ ((View.whole main_v42_1).slice (win0_13.rect t)).set ↔ _
  rw [View.set_slice_whole, Rect.mem_set_unit]
  exact Iff.rfl

/-- Every row lies in the block of the point `row / 6000`. -/
theorem cover_trans (i : S600000x3.Idx) :
    ∃ t : Fin cfg0.N, (cfg0.win 13).flush t = true ∧ i ∈ ((cfg0.win 13).blk t).view.set := by
  have hi0 : (i 0).val < 600000 := (i 0).isLt
  have hi1 : (i 1).val < 3 := (i 1).isLt
  have hN : grid0.N = 100 := N_0
  have ht : (i 0).val / 6000 < grid0.N := by omega
  refine ⟨⟨(i 0).val / 6000, ht⟩, flush0_13 _, ?_⟩
  rw [mem_blk_trans]
  obtain ⟨-, -, -, -, -, -, -, -, -, -, -, -, ⟨a12, b12⟩, ⟨a13, b13⟩⟩ := idx_facts ⟨(i 0).val / 6000, ht⟩
  have a12' : win0_12.index ⟨(i 0).val / 6000, ht⟩ (0 : Fin 2) = (i 0).val / 6000 := a12
  have a13' : win0_13.index ⟨(i 0).val / 6000, ht⟩ (0 : Fin 2) = (i 0).val / 6000 := a13
  intro a
  match a with
  | ⟨0, _⟩ =>
    show win0_13.index ⟨(i 0).val / 6000, ht⟩ (0 : Fin 2) * 6000 ≤ (i 0).val
      ∧ (i 0).val < win0_13.index ⟨(i 0).val / 6000, ht⟩ (0 : Fin 2) * 6000 + 6000
    omega
  | ⟨1, _⟩ =>
    show win0_13.index ⟨(i 0).val / 6000, ht⟩ (1 : Fin 2) * 3 ≤ (i 1).val
      ∧ (i 1).val < win0_13.index ⟨(i 0).val / 6000, ht⟩ (1 : Fin 2) * 3 + 3
    omega

/-- After the region the translation array holds `transArr` of the arrays the region was entered with. -/
theorem trans_array (c : Dev nD) :
    (dat0 (F := Ideal) V c).arrAt 13 cfg0.N
      = transArr (V c main_v11) (V c main_v18) (V c main_v33) (V c main_v35) (V c main_v37) (V c main_v38) (V c main_arg4)
        (V c main_v39) (V c main_arg6)
        (V c main_v40) (V c main_arg12) (V c main_v41) :=
  (dat0 V c).arrAt_eq_of_cover 13 _ (fun t _ => flushed_trans V c t) cover_trans

end Cert.KernelIdeal.EdgeValue

end
-- ==== Proof.NodeRegion.lean ====
/-
  The node kernel's region of the idealized kernel program, read as whole-array functions of the buffer
  contents it is entered with.

  The region walks 25 row blocks of 2000 nodes. At each block it leaves, in the two result arrays, rows
  2000·t … 2000·t + 1999 of
    hnew_j = h_j + (Σ_k silu (Σ_l h_l · Na_lk + Σ_l agg_l · Nb_lk + c_k) · N2_kj + c2_j)
    xnew   = x + t / max n 1,
  the rows of `Cert.Egcl.nodeOut` and `Cert.Egcl.coordOut`. Each row is computed from the same row of the
  row-blocked inputs and from the whole weight arrays, so the 25 blocks are the restrictions of ONE function of
  the array index; the blocks tile the 50000 rows (row r lies in block r / 2000), hence the arrays end holding
  that function everywhere.
-/
import proofs.«129493_j21560735826057_2_alg».proof.Proof.Gen.KernelIdeal.Frame
import proofs.«129493_j21560735826057_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at one element -/

/-- The new coordinate at row `r`, component `k`: the old coordinate plus the summed translation divided by the
    in-degree, the in-degree raised to at least one. -/
theorem coord_payload (v27 v28 : Vec Ideal S2000x3 .f32) (v30 : Vec Ideal S2000x1 .f32) (r : Fin 2000) (k : Fin 3) :
    k1_pay1 v27 (k1_pay3 v28) (k1_pay4 v30) (ix2 r k)
      = Cert.Egcl.coordOut (v27 (ix2 r k)) (v28 (ix2 r k)) (v30 (ix2 r (0 : Fin 1))) := by
  unfold k1_pay1 k1_pay3 k1_pay4 Cert.Egcl.coordOut
  rw [addf_apply, divf_apply, shapeCast_self, shapeCast_self]
  rw [broadcastTo_apply _ broadcasts_S2000x1_S2000x3 (ix2 r k) (ix2 r (0 : Fin 1)) (fun a => by
    match a with
    | ⟨0, _⟩ => rfl
    | ⟨1, _⟩ => rfl)]
  rw [maximumf_apply, broadcast_apply]
  show v27 (ix2 r k) + Ideal.div (v28 (ix2 r k)) (max (v30 (ix2 r 0)) (Ideal.ofBits .f32 0x3F800000#32)) = _
  rw [Ideal.ofBits_one_f32]

/-! ## One layer of the node network at one element -/

/-- The row operand of a 2000×128 by 128×128 product is read at the result's row. -/
theorem rowDot_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- and along the shared coordinate; -/
theorem rowDot_lhs_shared (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- the weight operand along the shared coordinate -/
theorem rowDot_rhs_shared (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- and at the result's column. -/
theorem rowDot_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product accumulated from zero, at row `r` and column `j`: the sum over the 128 shared
    coordinates. -/
theorem matmul_row (x : FVec Ideal S2000x128 .bf16) (w : FVec Ideal S128x128 .bf16) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact rowDot_lhs_row _ _
    | ⟨1, _⟩ => exact (rowDot_lhs_shared _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rowDot_rhs_shared _ _).trans hk
    | ⟨1, _⟩ => exact rowDot_rhs_col _ _)
  rw [el, er]

/-- A 128-vector laid as one row and repeated down 2000 rows reads, at row `r` and column `j`, its entry `j`. -/
theorem bias_row (b : FVec Ideal S128 .f32) (r : Fin 2000) (j : Fin 128) :
    broadcastTo S2000x128 (shapeCast S1x128 b shapeCasts_S128_S1x128) broadcasts_S1x128_S2000x128 (ix2 r j) = b (ix1 j) := by
  rw [broadcastTo_1b_ab_apply, shapeCast_a_1a_apply]

/-- The logistic function is applied entry by entry. -/
theorem logistic_at (x : FVec Ideal S2000x128 .f32) (i : S2000x128.Idx) : logistic x i = Ideal.logistic (x i) := rfl

/-- The new feature at row `r`, column `j`: the residual plus the two node layers. -/
theorem feat_payload (v0 : Vec Ideal S2000x128 .f32) (v2 : Vec Ideal S2000x128 .bf16) (v4 v7 v18 : Vec Ideal S128x128 .bf16)
    (v11 v21 : Vec Ideal S128 .f32) (r : Fin 2000) (j : Fin 128) :
    k1_pay2 v0 v2 v4 v7 v11 v18 v21 (ix2 r j)
      = Cert.Egcl.nodeOut (fun k => v0 (ix2 r k)) (fun k => v2 (ix2 r k)) (fun l k => v4 (ix2 l k)) (fun l k => v7 (ix2 l k))
          (fun k => v11 (ix1 k)) (fun k j => v18 (ix2 k j)) (fun j => v21 (ix1 j)) j := by
  unfold k1_pay2 Cert.Egcl.nodeOut Cert.Egcl.dense Cert.Egcl.silu Cert.Egcl.nodePre
  simp only [shapeCast_self]
  rw [addf_apply, addf_apply, bias_row, matmul_row]
  simp only [truncf_apply, mulf_apply, logistic_at, addf_apply, bias_row, matmul_row]

/-! ## Where each block sits in its array -/

theorem zero_offsets : (![0, 0] : Fin 2 → Nat) = fun _ => 0 := funext fun a => by fin_cases a <;> rfl

/-- The index maps of the coordinate windows, over the 25 grid points: at point `t` each of the three inputs'
    blocks and the result's block is row block `t`, column block 0. -/
theorem coord_block_index : ∀ t : Fin cfg1.N,
    win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_11.index t (0 : Fin 2) = t.val ∧ win1_11.index t (1 : Fin 2) = 0 :=
  (by decide +kernel : ∀ t : Fin grid1.N, _)

theorem zero_offset : (![0] : Fin 1 → Nat) = fun _ => 0 := funext fun a => by fin_cases a; rfl

/-- The index maps of the feature windows, over the 25 grid points: at point `t` the feature block, the aggregate
    block and the result's block are row block `t`, column block 0; each weight array is its one block. -/
theorem feat_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

section Region
variable (V : (c : Dev nD) → (b : Ref sig .tc) → Buf (Elt Ideal) ((c : Thread nD τ).loc b))

/-- The coordinate block at point `t`, element `y`, is the coordinate array at row `2000·t + y₀`, component `y₁`. -/
theorem coord_block (c : Dev nD) (t : Fin cfg1.N) (y : S2000x3.Idx) (i : S50000x3.Idx)
    (h0 : (i 0).val = t.val * 2000 + (y 0).val) (h1 : (i 1).val = (y 1).val) :
    (iblk1 V c 2 t : Vec Ideal S2000x3 .f32) y = (V c main_arg1 : S50000x3.Idx → EReal) i := by
  obtain ⟨e0, e1, -⟩ := coord_block_index t
  unfold iblk1
  rw [View.read_apply]
  show V c main_arg1 _ = V c main_arg1 _
  refine congrArg _ (funext fun a => Fin.ext ?_)
  match a with
  | ⟨0, _⟩ => show win1_2.index t (0 : Fin 2) * 2000 + 1 * (y 0).val = (i 0).val; rw [e0, h0]; omega
  | ⟨1, _⟩ => show win1_2.index t (1 : Fin 2) * 3 + 1 * (y 1).val = (i 1).val; rw [e1, h1]; omega

/-- The summed-translation block likewise. -/
theorem trans_block (c : Dev nD) (t : Fin cfg1.N) (y : S2000x3.Idx) (i : S50000x3.Idx)
    (h0 : (i 0).val = t.val * 2000 + (y 0).val) (h1 : (i 1).val = (y 1).val) :
    (iblk1 V c 3 t : Vec Ideal S2000x3 .f32) y = (V c main_v51 : S50000x3.Idx → EReal) i := by
  obtain ⟨-, -, e0, e1, -⟩ := coord_block_index t
  unfold iblk1
  rw [View.read_apply]
  show V c main_v51 _ = V c main_v51 _
  refine congrArg _ (funext fun a => Fin.ext ?_)
  match a with
  | ⟨0, _⟩ => show win1_3.index t (0 : Fin 2) * 2000 + 1 * (y 0).val = (i 0).val; rw [e0, h0]; omega
  | ⟨1, _⟩ => show win1_3.index t (1 : Fin 2) * 3 + 1 * (y 1).val = (i 1).val; rw [e1, h1]; omega

/-- The in-degree block: one column. -/
theorem count_block (c : Dev nD) (t : Fin cfg1.N) (y : S2000x1.Idx) (i : S50000x1.Idx)
    (h0 : (i 0).val = t.val * 2000 + (y 0).val) (h1 : (i 1).val = (y 1).val) :
    (iblk1 V c 4 t : Vec Ideal S2000x1 .f32) y = (V c main_v52 : S50000x1.Idx → EReal) i := by
  obtain ⟨-, -, -, -, e0, e1, -⟩ := coord_block_index t
  unfold iblk1
  rw [View.read_apply]
  show V c main_v52 _ = V c main_v52 _
  refine congrArg _ (funext fun a => Fin.ext ?_)
  match a with
  | ⟨0, _⟩ => show win1_4.index t (0 : Fin 2) * 2000 + 1 * (y 0).val = (i 0).val; rw [e0, h0]; omega
  | ⟨1, _⟩ => show win1_4.index t (1 : Fin 2) * 1 + 1 * (y 1).val = (i 1).val; rw [e1, h1]; omega

/-! ## The new coordinates -/

/-- The new coordinate array as one function of the entry contents. -/
abbrev coordNew (c : Dev nD) : S50000x3.Idx → EReal := fun i =>
  Cert.Egcl.coordOut ((V c main_arg1 : S50000x3.Idx → EReal) i) ((V c main_v51 : S50000x3.Idx → EReal) i)
    ((V c main_v52 : S50000x1.Idx → EReal) (ix2 (i 0) (0 : Fin 1)))

/-- What point `t` writes back to the new-coordinate array is block `t` of `coordNew`. -/
theorem coord_flushed (c : Dev nD) (t : Fin cfg1.N) :
    (dat1 (F := Ideal) V c).flushed 11 t = ((cfg1.win 11).blk t).view.read (Elt Ideal) (coordNew V c) := by
  show (cfg1.win 11).cut (grid1.coords t) ((dat1 (F := Ideal) V c).after 11 t) = _
  rw [after1_11]
  unfold out1_11
  rw [View.canon_unit_zero zero_offsets]
  simp only [View.ld_unit_zero (S := S2000x3) zero_offsets, View.ld_unit_zero (S := S2000x1) zero_offsets]
  obtain ⟨-, -, -, -, -, -, e0, e1⟩ := coord_block_index t
  refine funext fun (j : S2000x3.Idx) => ?_
  show k1_pay1 (iblk1 V c 2 t) (k1_pay3 (iblk1 V c 3 t)) (k1_pay4 (iblk1 V c 4 t)) j
      = coordNew V c (((cfg1.win 11).blk t).view.emb j)
  have p0 : ((((cfg1.win 11).blk t).view.emb j) 0).val = t.val * 2000 + (j 0).val := by
    show win1_11.index t (0 : Fin 2) * 2000 + 1 * (j 0).val = _; rw [e0]; omega
  have p1 : ((((cfg1.win 11).blk t).view.emb j) 1).val = (j 1).val := by
    show win1_11.index t (1 : Fin 2) * 3 + 1 * (j 1).val = _; rw [e1]; omega
  generalize ((cfg1.win 11).blk t).view.emb j = i at p0 p1 ⊢
  obtain ⟨r, k, rfl⟩ : ∃ (r : Fin 2000) (k : Fin 3), j = ix2 r k := ⟨j 0, j 1, eq_ix2 j⟩
  rw [coord_payload, coord_block V c t (ix2 r k) i p0 p1, trans_block V c t (ix2 r k) i p0 p1,
    count_block V c t (ix2 r (0 : Fin 1)) (ix2 (i 0) (0 : Fin 1)) p0 rfl]

/-- An index of the new-coordinate array lies in point `t`'s block iff each coordinate lies in the block's range. -/
theorem mem_coord_block (t : Fin cfg1.N) (i : S50000x3.Idx) :
    i ∈ ((cfg1.win 11).blk t).view.set ↔ ∀ a : Fin 2, win1_11.index t a * S2000x3.size a ≤ (i a).val ∧ (i a).val < win1_11.index t a * S2000x3.size a + S2000x3.size a := by
  show i ∈ ((View.whole main_v59_1).slice (win1_11.rect t)).set ↔ _
  rw [View.set_slice_whole, Rect.mem_set_unit]
  exact Iff.rfl

/-- Every row of the new-coordinate array lies in a block: row `r` in block `r / 2000`. -/
theorem coord_cover (i : S50000x3.Idx) :
    ∃ t : Fin cfg1.N, (cfg1.win 11).flush t = true ∧ i ∈ ((cfg1.win 11).blk t).view.set := by
  have hi0 : (i 0).val < 50000 := (i 0).isLt
  have hi1 : (i 1).val < 3 := (i 1).isLt
  have hN : cfg1.N = 25 := N_1
  let t : Fin cfg1.N := ⟨(i 0).val / 2000, by rw [hN]; omega⟩
  obtain ⟨-, -, -, -, -, -, e0, e1⟩ := coord_block_index t
  have ht : t.val = (i 0).val / 2000 := rfl
  refine ⟨t, flush1_11 t, ?_⟩
  rw [mem_coord_block]
  intro a
  match a with
  | ⟨0, _⟩ => show win1_11.index t (0 : Fin 2) * 2000 ≤ (i 0).val ∧ (i 0).val < win1_11.index t (0 : Fin 2) * 2000 + 2000; rw [e0, ht]; omega
  | ⟨1, _⟩ => show win1_11.index t (1 : Fin 2) * 3 ≤ (i 1).val ∧ (i 1).val < win1_11.index t (1 : Fin 2) * 3 + 3; rw [e1]; omega

/-- THE NEW COORDINATES after the region: at every node, the old coordinate plus the mean translation. -/
theorem coord_new_array (c : Dev nD) :
    (dat1 (F := Ideal) V c).arrAt 11 cfg1.N
      = (fun i => Cert.Egcl.coordOut ((V c main_arg1 : S50000x3.Idx → EReal) i) ((V c main_v51 : S50000x3.Idx → EReal) i)
          ((V c main_v52 : S50000x1.Idx → EReal) (ix2 (i 0) (0 : Fin 1))) : S50000x3.Idx → EReal) :=
  (dat1 (F := Ideal) V c).arrAt_eq_of_cover 11 (coordNew V c) (fun t _ => coord_flushed V c t) coord_cover

/-! ## The new features -/

/-- The feature block at point `t`, element `y`, is the feature array at row `2000·t + y₀`, column `y₁`. -/
theorem feat_block (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_arg0 : S50000x128.Idx → EReal) i := by
  obtain ⟨e0, e1, -⟩ := feat_block_index t
  unfold iblk1
  rw [View.read_apply]
  show V c main_arg0 _ = V c main_arg0 _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The aggregate block likewise. -/
theorem agg_block (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .bf16) y = (V c main_v53 : S50000x128.Idx → EReal) i := by
  obtain ⟨-, -, e0, e1, -⟩ := feat_block_index t
  unfold iblk1
  rw [View.read_apply]
  show V c main_v53 _ = V c main_v53 _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The first layer's feature half is its whole array at every point. -/
theorem weightA_block (c : Dev nD) (t : Fin cfg1.N) :
    (iblk1 V c 5 t : Vec Ideal S128x128 .bf16) = (V c main_v55 : S128x128.Idx → EReal) := by
  obtain ⟨-, -, -, -, e0, e1, -⟩ := feat_block_index t
  funext y
  unfold iblk1
  rw [View.read_apply]
  show V c main_v55 _ = V c main_v55 y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The first layer's aggregate half likewise. -/
theorem weightB_block (c : Dev nD) (t : Fin cfg1.N) :
    (iblk1 V c 6 t : Vec Ideal S128x128 .bf16) = (V c main_v57 : S128x128.Idx → EReal) := by
  obtain ⟨-, -, -, -, -, -, e0, e1, -⟩ := feat_block_index t
  funext y
  unfold iblk1
  rw [View.read_apply]
  show V c main_v57 _ = V c main_v57 y
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

/-- The first layer's bias likewise. -/
theorem bias1_block (c : Dev nD) (t : Fin cfg1.N) :
    (iblk1 V c 7 t : Vec Ideal S128 .f32) = (V c main_arg8 : S128.Idx → EReal) := by
  obtain ⟨-, -, -, -, -, -, -, -, e0, -⟩ := feat_block_index t
  funext y
  unfold iblk1
  rw [View.read_apply]
  show V c main_arg8 _ = V c main_arg8 y
  refine congrArg _ (funext fun a => Fin.ext ?_)
  match a with
  | ⟨0, _⟩ => show win1_7.index t (0 : Fin 1) * 128 + 1 * (y 0).val = (y 0).val; rw [e0]; omega

/-- The second layer's weights likewise. -/
theorem weight2_block (c : Dev nD) (t : Fin cfg1.N) :
    (iblk1 V c 8 t : Vec Ideal S128x128 .bf16) = (V c main_v58 : S128x128.Idx → EReal) := by
  obtain ⟨-, -, -, -, -, -, -, -, -, e0, e1, -⟩ := feat_block_index t
  funext y
  unfold iblk1
  rw [View.read_apply]
  show V c main_v58 _ = V c main_v58 y
  refine congrArg _ (funext fun a => Fin.ext ?_)
  match a with
  | ⟨0, _⟩ => show win1_8.index t (0 : Fin 2) * 128 + 1 * (y 0).val = (y 0).val; rw [e0]; omega
  | ⟨1, _⟩ => show win1_8.index t (1 : Fin 2) * 128 + 1 * (y 1).val = (y 1).val; rw [e1]; omega

/-- The second layer's bias likewise. -/
theorem bias2_block (c : Dev nD) (t : Fin cfg1.N) :
    (iblk1 V c 9 t : Vec Ideal S128 .f32) = (V c main_arg10 : S128.Idx → EReal) := by
  obtain ⟨-, -, -, -, -, -, -, -, -, -, -, e0, -⟩ := feat_block_index t
  funext y
  unfold iblk1
  rw [View.read_apply]
  show V c main_arg10 _ = V c main_arg10 y
  refine congrArg _ (funext fun a => Fin.ext ?_)
  match a with
  | ⟨0, _⟩ => show win1_9.index t (0 : Fin 1) * 128 + 1 * (y 0).val = (y 0).val; rw [e0]; omega

/-- The new feature array as one function of the entry contents. -/
abbrev featNew (c : Dev nD) : S50000x128.Idx → EReal := fun i =>
  Cert.Egcl.nodeOut (fun k => (V c main_arg0 : S50000x128.Idx → EReal) (ix2 (i 0) k))
    (fun k => (V c main_v53 : S50000x128.Idx → EReal) (ix2 (i 0) k))
    (fun l k => (V c main_v55 : S128x128.Idx → EReal) (ix2 l k)) (fun l k => (V c main_v57 : S128x128.Idx → EReal) (ix2 l k))
    (fun k => (V c main_arg8 : S128.Idx → EReal) (ix1 k))
    (fun k j => (V c main_v58 : S128x128.Idx → EReal) (ix2 k j)) (fun j => (V c main_arg10 : S128.Idx → EReal) (ix1 j)) (i 1)

/-- What point `t` writes back to the new-feature array is block `t` of `featNew`. -/
theorem feat_flushed (c : Dev nD) (t : Fin cfg1.N) :
    (dat1 (F := Ideal) V c).flushed 10 t = ((cfg1.win 10).blk t).view.read (Elt Ideal) (featNew V c) := by
  show (cfg1.win 10).cut (grid1.coords t) ((dat1 (F := Ideal) V c).after 10 t) = _
  rw [after1_10]
  unfold out1_10
  rw [View.canon_unit_zero zero_offsets]
  simp only [View.ld_unit_zero (S := S2000x128) zero_offsets, View.ld_unit_zero (S := S128x128) zero_offsets,
    View.ld_unit_zero (S := S128) zero_offset]
  rw [weightA_block V c t, weightB_block V c t, bias1_block V c t, weight2_block V c t, bias2_block V c t]
  obtain ⟨-, -, -, -, -, -, -, -, -, -, -, -, e0, e1⟩ := feat_block_index t
  refine funext fun (j : S2000x128.Idx) => ?_
  show k1_pay2 (iblk1 V c 0 t) (iblk1 V c 1 t) (V c main_v55) (V c main_v57) (V c main_arg8) (V c main_v58) (V c main_arg10) j
      = featNew V c (((cfg1.win 10).blk t).view.emb j)
  have p0 : ((((cfg1.win 10).blk t).view.emb j) 0).val = t.val * 2000 + (j 0).val := by
    show win1_10.index t (0 : Fin 2) * 2000 + 1 * (j 0).val = _; rw [e0]; omega
  have p1 : ((((cfg1.win 10).blk t).view.emb j) 1).val = (j 1).val := by
    show win1_10.index t (1 : Fin 2) * 128 + 1 * (j 1).val = _; rw [e1]; omega
  generalize ((cfg1.win 10).blk t).view.emb j = i at p0 p1 ⊢
  obtain ⟨r, k, rfl⟩ : ∃ (r : Fin 2000) (k : Fin 128), j = ix2 r k := ⟨j 0, j 1, eq_ix2 j⟩
  have hh : (fun l : Fin 128 => (iblk1 V c 0 t : Vec Ideal S2000x128 .f32) (ix2 r l))
      = fun l => (V c main_arg0 : S50000x128.Idx → EReal) (ix2 (i 0) l) :=
    funext fun l => feat_block V c t (ix2 r l) (ix2 (i 0) l) p0 rfl
  have ha : (fun l : Fin 128 => (iblk1 V c 1 t : Vec Ideal S2000x128 .bf16) (ix2 r l))
      = fun l => (V c main_v53 : S50000x128.Idx → EReal) (ix2 (i 0) l) :=
    funext fun l => agg_block V c t (ix2 r l) (ix2 (i 0) l) p0 rfl
  have hk : k = i 1 := Fin.ext p1.symm
  rw [feat_payload, hh, ha, hk]

/-- An index of the new-feature array lies in point `t`'s block iff each coordinate lies in the block's range. -/
theorem mem_feat_block (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v59_0).slice (win1_10.rect t)).set ↔ _
  rw [View.set_slice_whole, Rect.mem_set_unit]
  exact Iff.rfl

/-- Every row of the new-feature array lies in a block: row `r` in block `r / 2000`. -/
theorem feat_cover (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, e0, e1⟩ := feat_block_index t
  have ht : t.val = (i 0).val / 2000 := rfl
  refine ⟨t, flush1_10 t, ?_⟩
  rw [mem_feat_block]
  intro a
  match a with
  | ⟨0, _⟩ => show win1_10.index t (0 : Fin 2) * 2000 ≤ (i 0).val ∧ (i 0).val < win1_10.index t (0 : Fin 2) * 2000 + 2000; rw [e0, ht]; omega
  | ⟨1, _⟩ => show win1_10.index t (1 : Fin 2) * 128 ≤ (i 1).val ∧ (i 1).val < win1_10.index t (1 : Fin 2) * 128 + 128; rw [e1]; omega

/-- THE NEW FEATURES after the region: at every node, the residual plus the two node layers of its own feature row and
    its aggregate row. -/
theorem h_new_array (c : Dev nD) :
    (dat1 (F := Ideal) V c).arrAt 10 cfg1.N
      = (fun i => Cert.Egcl.nodeOut (fun k => (V c main_arg0 : S50000x128.Idx → EReal) (ix2 (i 0) k))
          (fun k => (V c main_v53 : S50000x128.Idx → EReal) (ix2 (i 0) k))
          (fun l k => (V c main_v55 : S128x128.Idx → EReal) (ix2 l k)) (fun l k => (V c main_v57 : S128x128.Idx → EReal) (ix2 l k))
          (fun k => (V c main_arg8 : S128.Idx → EReal) (ix1 k))
          (fun k j => (V c main_v58 : S128x128.Idx → EReal) (ix2 k j)) (fun j => (V c main_arg10 : S128.Idx → EReal) (ix1 j)) (i 1)
          : S50000x128.Idx → EReal) :=
  (dat1 (F := Ideal) V c).arrAt_eq_of_cover 10 (featNew V c) (fun t _ => feat_flushed V c t) feat_cover

end Region

end Cert.KernelIdeal.NodeValue

end
-- ==== Proof.KernelValue.lean ====
/-
  The idealized kernel program's three results as functions of its fourteen arguments.

  The contents of every buffer at the last boundary are a fold through @main. Read at the edge-feature array: the
  node region does not touch it and the host operations between the regions do not write it, so it holds what the edge
  region left — `featArr` of the gathered endpoint features, the coordinate differences and the edge layers' weights.
  Read at the node region's two outputs: `nodeOut` and `coordOut` of the arrays that region was entered with, which
  are the arguments themselves, the scatter-add of the edge features over the source endpoints, and the first three
  and the last column of the scatter-add of the translations beside a column of ones.
-/
import proofs.«129493_j21560735826057_2_alg».proof.Proof.KernelHost
import proofs.«129493_j21560735826057_2_alg».proof.Proof.EdgeRegion
import proofs.«129493_j21560735826057_2_alg».proof.Proof.NodeRegion

set_option maxRecDepth 16384

noncomputable section

namespace Cert.KernelIdeal.Result

open Cert.KernelIdeal Cert.KernelIdeal.Gen Cert.KernelIdeal.HostValue Cert.KernelIdeal.EdgeValue
open Idealize.ShloMosaic Idealize.ShloMosaic.TcCoe Idealize.SL.Sem Idealize.ShloMosaic.StableHlo
open Idealize.ShloMosaic.ValueIdx

/-- The edge features, from the node features `H`, the coordinates `X`, the edge list `E` and the two edge layers. -/
def featOf (H : FVec Ideal S50000x128 .f32) (X : FVec Ideal S50000x3 .f32) (E : IVec S2x600000 32)
    (W1 : FVec Ideal S257x128 .f32) (B1 : FVec Ideal S128 .f32) (W2 : FVec Ideal S128x128 .f32) (B2 : FVec Ideal S128 .f32) :
    S600000x128.Idx → EReal :=
  featArr (gatherH H (rowI E)) (gatherH H (colI E)) (coordDiff X E)
    (truncf .bf16 (extractStridedSlice S128x128 ![0, 0] W1 slices_S257x128_S128x128_0_0) bitsLt_bf16_f32)
    (truncf .bf16 (extractStridedSlice S128x128 ![128, 0] W1 slices_S257x128_S128x128_128_0) bitsLt_bf16_f32)
    (extractStridedSlice S1x128 ![256, 0] W1 slices_S257x128_S1x128_256_0) B1 (truncf .bf16 W2 bitsLt_bf16_f32) B2

/-- The translations, from the same and the coordinate layers. -/
def transOf (H : FVec Ideal S50000x128 .f32) (X : FVec Ideal S50000x3 .f32) (E : IVec S2x600000 32)
    (W1 : FVec Ideal S257x128 .f32) (B1 : FVec Ideal S128 .f32) (W2 : FVec Ideal S128x128 .f32) (B2 : FVec Ideal S128 .f32)
    (C1 : FVec Ideal S128x128 .f32) (D1 : FVec Ideal S128 .f32) (C2 : FVec Ideal S128x1 .f32) : S600000x3.Idx → EReal :=
  transArr (gatherH H (rowI E)) (gatherH H (colI E)) (coordDiff X E)
    (truncf .bf16 (extractStridedSlice S128x128 ![0, 0] W1 slices_S257x128_S128x128_0_0) bitsLt_bf16_f32)
    (truncf .bf16 (extractStridedSlice S128x128 ![128, 0] W1 slices_S257x128_S128x128_128_0) bitsLt_bf16_f32)
    (extractStridedSlice S1x128 ![256, 0] W1 slices_S257x128_S1x128_256_0) B1 (truncf .bf16 W2 bitsLt_bf16_f32) B2
    (truncf .bf16 C1 bitsLt_bf16_f32) D1 (truncf .bf16 C2 bitsLt_bf16_f32)

/-- The new node features, from the node features, the edge features summed over each node's outgoing edges, and the node layers. -/
def hNewOf (H : FVec Ideal S50000x128 .f32) (X : FVec Ideal S50000x3 .f32) (E : IVec S2x600000 32)
    (W1 : FVec Ideal S257x128 .f32) (B1 : FVec Ideal S128 .f32) (W2 : FVec Ideal S128x128 .f32) (B2 : FVec Ideal S128 .f32)
    (N1 : FVec Ideal S256x128 .f32) (c1 : FVec Ideal S128 .f32) (N2 : FVec Ideal S128x128 .f32) (c2 : FVec Ideal S128 .f32) :
    S50000x128.Idx → EReal := fun i =>
  Cert.Egcl.nodeOut (fun k => H (ix2 (i 0) k)) (fun k => aggOf (featOf H X E W1 B1 W2 B2) (rowI E) (ix2 (i 0) k))
    (fun l k => (truncf .bf16 (extractStridedSlice S128x128 ![0, 0] N1 slices_S256x128_S128x128_0_0) bitsLt_bf16_f32 : FVec Ideal S128x128 .bf16) (ix2 l k))
    (fun l k => (truncf .bf16 (extractStridedSlice S128x128 ![128, 0] N1 slices_S256x128_S128x128_128_0) bitsLt_bf16_f32 : FVec Ideal S128x128 .bf16) (ix2 l k))
    (fun k => c1 (ix1 k)) (fun k j => (truncf .bf16 N2 bitsLt_bf16_f32 : FVec Ideal S128x128 .bf16) (ix2 k j)) (fun j => c2 (ix1 j)) (i 1)

/-- The new node coordinates: the coordinates plus the summed translations over the larger of the edge count and one. -/
def xNewOf (H : FVec Ideal S50000x128 .f32) (X : FVec Ideal S50000x3 .f32) (E : IVec S2x600000 32)
    (W1 : FVec Ideal S257x128 .f32) (B1 : FVec Ideal S128 .f32) (W2 : FVec Ideal S128x128 .f32) (B2 : FVec Ideal S128 .f32)
    (C1 : FVec Ideal S128x128 .f32) (D1 : FVec Ideal S128 .f32) (C2 : FVec Ideal S128x1 .f32) : S50000x3.Idx → EReal := fun i =>
  Cert.Egcl.coordOut (X i) (tSumOf (transOf H X E W1 B1 W2 B2 C1 D1 C2) (rowI E) i)
    (cntOf (transOf H X E W1 B1 W2 B2 C1 D1 C2) (rowI E) (ix2 (i 0) (0 : Fin 1)))

variable (m : (ℓ : Loc nD τ sig) → Buf (Elt Ideal) ℓ) (ρ : Dev nD → PrngReg)

/-- After the edge region the edge-feature array holds `featOf` of the arguments. -/
theorem W2_feat (c : Dev nD) :
    W2 m ρ c (Proc.devRef .tc main_v42_0) = featOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 12).trans ((feat_array (V1 m ρ) c).trans ?_)
  have h11 : V1 m ρ c main_v11 = gatherH (m ((c : Thread nD τ).loc main_arg0)) (rowI (m ((c : Thread nD τ).loc main_arg2))) := W1_v11 m ρ c
  have h18 : V1 m ρ c main_v18 = gatherH (m ((c : Thread nD τ).loc main_arg0)) (colI (m ((c : Thread nD τ).loc main_arg2))) := W1_v18 m ρ c
  have h33 : V1 m ρ c main_v33 = coordDiff (m ((c : Thread nD τ).loc main_arg1)) (m ((c : Thread nD τ).loc main_arg2)) := W1_v33 m ρ c
  have h35 : V1 m ρ c main_v35 = _ := W1_v35 m ρ c
  have h37 : V1 m ρ c main_v37 = _ := W1_v37 m ρ c
  have h38 : V1 m ρ c main_v38 = _ := W1_v38 m ρ c
  have h4 : V1 m ρ c main_arg4 = _ := W1_arg4 m ρ c
  have h39 : V1 m ρ c main_v39 = _ := W1_v39 m ρ c
  have h6 : V1 m ρ c main_arg6 = _ := W1_arg6 m ρ c
  rw [h11, h18, h33, h35, h37, h38, h4, h39, h6]
  rfl

/-- After the edge region the translation array holds `transOf` of the arguments. -/
theorem W2_trans (c : Dev nD) :
    W2 m ρ c (Proc.devRef .tc main_v42_1)
      = transOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (W2_arr m ρ c 13).trans ((trans_array (V1 m ρ) c).trans ?_)
  have h11 : V1 m ρ c main_v11 = gatherH (m ((c : Thread nD τ).loc main_arg0)) (rowI (m ((c : Thread nD τ).loc main_arg2))) := W1_v11 m ρ c
  have h18 : V1 m ρ c main_v18 = gatherH (m ((c : Thread nD τ).loc main_arg0)) (colI (m ((c : Thread nD τ).loc main_arg2))) := W1_v18 m ρ c
  have h33 : V1 m ρ c main_v33 = coordDiff (m ((c : Thread nD τ).loc main_arg1)) (m ((c : Thread nD τ).loc main_arg2)) := W1_v33 m ρ c
  have h35 : V1 m ρ c main_v35 = _ := W1_v35 m ρ c
  have h37 : V1 m ρ c main_v37 = _ := W1_v37 m ρ c
  have h38 : V1 m ρ c main_v38 = _ := W1_v38 m ρ c
  have h4 : V1 m ρ c main_arg4 = _ := W1_arg4 m ρ c
  have h39 : V1 m ρ c main_v39 = _ := W1_v39 m ρ c
  have h6 : V1 m ρ c main_arg6 = _ := W1_arg6 m ρ c
  have h40 : V1 m ρ c main_v40 = _ := W1_v40 m ρ c
  have h12 : V1 m ρ c main_arg12 = _ := W1_arg12 m ρ c
  have h41 : V1 m ρ c main_v41 = _ := W1_v41 m ρ c
  rw [h11, h18, h33, h35, h37, h38, h4, h39, h6, h40, h12, h41]
  rfl

/-- The source endpoints and the arguments the node region reads are, after the edge region, what they were before it. -/
theorem W2_v1 (c : Dev nD) : W2 m ρ c (Proc.devRef .tc main_v1) = rowI (m ((c : Thread nD τ).loc main_arg2)) :=
  (W2_of_ne m ρ c main_v1 (by decide)).trans (W1_v1 m ρ c)
theorem W2_arg0 (c : Dev nD) : W2 m ρ c (Proc.devRef .tc main_arg0) = (m ((c : Thread nD τ).loc main_arg0)) :=
  (W2_of_ne m ρ c main_arg0 (by decide)).trans (W1_arg0 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)

/-- THE EDGE FEATURES at the last boundary. -/
theorem W4_feat (c : Dev nD) :
    W4 m ρ c (Proc.devRef .tc main_v42_0) = featOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v42_0 (by decide)).trans ((W3_v42_0 m ρ c).trans (W2_feat m ρ c))

/-- THE NEW NODE FEATURES at the last boundary. -/
theorem W4_hnew (c : Dev nD) :
    W4 m ρ c (Proc.devRef .tc main_v59_0)
      = hNewOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 10).trans ((Cert.KernelIdeal.NodeValue.h_new_array (V3 m ρ) c).trans ?_)
  have g0 : V3 m ρ c main_arg0 = (m ((c : Thread nD τ).loc main_arg0)) := (W3_arg0 m ρ c).trans (W2_arg0 m ρ c)
  have g53 : V3 m ρ c main_v53 = aggOf (featOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (rowI (m ((c : Thread nD τ).loc main_arg2))) :=
    (W3_v53 m ρ c).trans (by rw [W2_feat m ρ c, W2_v1 m ρ c])
  have g55 : V3 m ρ c main_v55 = _ := (W3_v55 m ρ c).trans (by rw [W2_arg7 m ρ c])
  have g57 : V3 m ρ c main_v57 = _ := (W3_v57 m ρ c).trans (by rw [W2_arg7 m ρ c])
  have g8 : V3 m ρ c main_arg8 = (m ((c : Thread nD τ).loc main_arg8)) := (W3_arg8 m ρ c).trans (W2_arg8 m ρ c)
  have g58 : V3 m ρ c main_v58 = _ := (W3_v58 m ρ c).trans (by rw [W2_arg9 m ρ c])
  have g10 : V3 m ρ c main_arg10 = (m ((c : Thread nD τ).loc main_arg10)) := (W3_arg10 m ρ c).trans (W2_arg10 m ρ c)
  rw [g0, g53, g55, g57, g8, g58, g10]
  rfl

/-- THE NEW NODE COORDINATES at the last boundary. -/
theorem W4_xnew (c : Dev nD) :
    W4 m ρ c (Proc.devRef .tc main_v59_1) = xNewOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (W4_arr m ρ c 11).trans ((Cert.KernelIdeal.NodeValue.coord_new_array (V3 m ρ) c).trans ?_)
  have g1 : V3 m ρ c main_arg1 = (m ((c : Thread nD τ).loc main_arg1)) := (W3_arg1 m ρ c).trans (W2_arg1 m ρ c)
  have g51 : V3 m ρ c main_v51 = tSumOf (transOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13))) (rowI (m ((c : Thread nD τ).loc main_arg2))) :=
    (W3_v51 m ρ c).trans (by rw [W2_trans m ρ c, W2_v1 m ρ c])
  have g52 : V3 m ρ c main_v52 = cntOf (transOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13))) (rowI (m ((c : Thread nD τ).loc main_arg2))) :=
    (W3_v52 m ρ c).trans (by rw [W2_trans m ρ c, W2_v1 m ρ c])
  rw [g1, g51, g52]
  rfl

end Cert.KernelIdeal.Result

end
-- ==== Proof.RefRead.lean ====
/-
  The reference program read, one element at a time, down to the layer's specification (`Cert.Egcl`).

  The reference is an E(n)-equivariant graph layer. Its dense arithmetic is read here; its gathers (the endpoint rows
  `h[row]`, `h[col]` and the coordinate difference `coord[row] - coord[col]`) and its scatter-adds (the aggregated
  edge features, the summed translations and the in-degree) are left as the arrays they are:
    * an edge's feature is `edgeFeat` of its endpoint rows, its coordinate difference and the edge network's weights
      (the 257 input columns `[h[row] | h[col] | squared length]` contract with the first weight matrix in three groups);
    * an edge's translation is its coordinate difference times `coordScale` of its feature;
    * a node's new feature is `nodeOut` of its own row and its aggregated edge features
      (the 256 input columns `[h | agg]` contract with the node network's first weight matrix in two groups);
    * a node's new coordinate is `coordOut` of its coordinate, its summed translations and its in-degree.
  The activation is printed expanded, `x · (1 / (1 + e^(-x)))`, which is `x · logistic x`.
-/
import proofs.«129493_j21560735826057_2_alg».proof.Proof.Gen.ReferenceIdeal.Read
import proofs.«129493_j21560735826057_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The constant one and the activation -/

/-- The single-precision word `0x3F800000` is the number one. -/
theorem ofBits_one_f32 : Ideal.ofBits .f32 0x3F800000#32 = 1 := by
  simp [Ideal.ofBits, Ideal.ieee, -EReal.coe_mul]; norm_num

/-- `x · (1 / (1 + e^(-x)))`, spelled operation by operation, is `silu x`. -/
theorem silu_expanded (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = Cert.Egcl.silu x := by
  simp only [Ideal.mulf_def, Ideal.hostDivf_def, Ideal.addf_def, Ideal.hostUnary_exp_def, Ideal.hostNegf_def,
    Ideal.negf_def, Ideal.ofBits_def, ofBits_one_f32]
  rfl

variable (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S257x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal))

/-! ## The new coordinate -/

/-- A node's new coordinate: its coordinate plus its summed translations over `max (in-degree) 1`. -/
theorem coord_new (i : S50000x3.Idx) :
    val_main_v66 (F := Ideal) x0 x1 x2 x3 x4 x5 x6 x11 x12 x13 i
      = Cert.Egcl.coordOut (x1 i) (val_main_v57 (F := Ideal) x0 x1 x2 x3 x4 x5 x6 x11 x12 x13 i) (val_main_v61 (F := Ideal) x2 (ix2 (i 0) (0 : Fin 1))) := by
  have e : idx_main_v64 i = ix2 (i 0) (0 : Fin 1) := funext fun a => Fin.ext (by match a with | ⟨0, _⟩ => rfl | ⟨1, _⟩ => rfl)
  rw [val_main_v66_apply, val_main_v65_apply, val_main_v64_apply, val_main_v63_apply, val_main_v62_apply,
    val_main_cst_10_apply, e]
  simp only [Ideal.addf_def, Ideal.hostDivf_def, Ideal.maximumf_def, Ideal.ofBits_def, ofBits_one_f32]
  rfl

/-! ## The edge network's input: the three groups of its 257 columns -/

/-- Columns 0 … 127 of the edge network's input are the row endpoint's features. -/
theorem cat_edge_row (e : Fin 600000) (k : Fin 128) :
    val_main_v36 (F := Ideal) x0 x1 x2 (ix2 e (⟨k.val, by omega⟩ : Fin 257)) = val_main_v28 (F := Ideal) x0 x2 (ix2 e k) := by
  unfold val_main_v36
  exact concatenate_apply_piece (t := S600000x257) (1 : Fin 2) _ _ _
    0 (by simp) S600000x128 (val_main_v28 (F := Ideal) x0 x2) rfl rfl 0 rfl (ix2 e k)
    (fun b hb => by match b with | ⟨0, _⟩ => rfl | ⟨1, _⟩ => exact absurd rfl hb)
    (by show 0 + k.val = k.val; omega)

/-- Columns 128 … 255 are the column endpoint's features. -/
theorem cat_edge_col (e : Fin 600000) (k : Fin 128) :
    val_main_v36 (F := Ideal) x0 x1 x2 (ix2 e (⟨128 + k.val, by omega⟩ : Fin 257)) = val_main_v35 (F := Ideal) x0 x2 (ix2 e k) := by
  unfold val_main_v36
  exact concatenate_apply_piece (t := S600000x257) (1 : Fin 2) _ _ _
    1 (by simp) S600000x128 (val_main_v35 (F := Ideal) x0 x2) rfl rfl 128 rfl (ix2 e k)
    (fun b hb => by match b with | ⟨0, _⟩ => rfl | ⟨1, _⟩ => exact absurd rfl hb)
    (by show 128 + k.val = 128 + k.val; rfl)

/-- The squared length of an edge's coordinate difference: zero plus the sum of the three squares. -/
theorem radial (e : Fin 600000) :
    val_main_v21 (F := Ideal) x1 x2 (ix2 e (0 : Fin 1))
      = Cert.Egcl.sqLen (fun k => val_main_v18 (F := Ideal) x1 x2 (ix2 e k)) := by
  have e1 : idx_main_v21 (ix2 e (0 : Fin 1)) = ix1 e := funext fun a => Fin.ext (by match a with | ⟨0, _⟩ => rfl)
  have e2 : ∀ k : Fin 3, idx_main_v20 (ix1 e) k = ix2 e k := fun k => funext fun a => Fin.ext (by match a with | ⟨0, _⟩ => rfl | ⟨1, _⟩ => rfl)
  rw [val_main_v21_apply, e1, val_main_v20_apply, val_main_cst_apply]
  simp only [e2, val_main_v19_apply, Ideal.mulf_def, Ideal.ofBits_def, Ideal.ofBits_zero_f32, zero_add]
  rfl

/-- Column 256 is the squared length of the coordinate difference. -/
theorem cat_edge_radial (e : Fin 600000) :
    val_main_v36 (F := Ideal) x0 x1 x2 (ix2 e (⟨256, by omega⟩ : Fin 257))
      = Cert.Egcl.sqLen (fun k => val_main_v18 (F := Ideal) x1 x2 (ix2 e k)) := by
  rw [← radial]
  unfold val_main_v36
  exact concatenate_apply_piece (t := S600000x257) (1 : Fin 2) _ _ _
    2 (by simp) S600000x1 (val_main_v21 (F := Ideal) x1 x2) rfl rfl 256 rfl (ix2 e (0 : Fin 1))
    (fun b hb => by match b with | ⟨0, _⟩ => rfl | ⟨1, _⟩ => exact absurd rfl hb)
    (by show 256 + 0 = 256; rfl)

/-! ## The edge feature -/

/-- The first edge layer before its activation: the 257-term contraction split into its three groups, plus the bias. -/
theorem edge_pre (e : Fin 600000) (j : Fin 128) :
    val_main_v40 (F := Ideal) x0 x1 x2 x3 x4 (ix2 e j)
      = Cert.Egcl.edgePre (fun k => val_main_v28 (F := Ideal) x0 x2 (ix2 e k)) (fun k => val_main_v35 (F := Ideal) x0 x2 (ix2 e k))
          (fun k => val_main_v18 (F := Ideal) x1 x2 (ix2 e k))
          (fun k j => x3 (ix2 ⟨k.val, by omega⟩ j)) (fun k j => x3 (ix2 ⟨128 + k.val, by omega⟩ j))
          (fun j => x3 (ix2 ⟨256, by omega⟩ j)) (fun j => x4 (ix1 j)) j := by
  have el : ∀ k : Fin 257, lidx_main_v37 (ix2 e j) k = ix2 e k := fun k => funext fun a => Fin.ext (by match a with | ⟨0, _⟩ => rfl | ⟨1, _⟩ => rfl)
  have er : ∀ k : Fin 257, ridx_main_v37 (ix2 e j) k = ix2 k j := fun k => funext fun a => Fin.ext (by match a with | ⟨0, _⟩ => rfl | ⟨1, _⟩ => rfl)
  have eb : idx_main_v38 (idx_main_v39 (ix2 e j)) = ix1 j := funext fun a => Fin.ext (by match a with | ⟨0, _⟩ => rfl)
  rw [val_main_v40_apply, val_main_v39_apply, val_main_v38_apply, eb, val_main_v37_apply]
  simp only [el, er]
  rw [Cert.Egcl.sum_257]
  simp only [cat_edge_row, cat_edge_col, cat_edge_radial, Ideal.addf_def]
  rfl

/-- The first edge layer's activation. -/
theorem edge_act1 (p : S600000x128.Idx) :
    val_main_v41 (F := Ideal) x0 x1 x2 x3 x4 p = Cert.Egcl.silu (val_main_v40 (F := Ideal) x0 x1 x2 x3 x4 p) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_expanded _

/-- The second edge layer before its activation. -/
theorem edge_lin2 (e : Fin 600000) (j : Fin 128) :
    val_main_v45 (F := Ideal) x0 x1 x2 x3 x4 x5 x6 (ix2 e j)
      = Cert.Egcl.dense (fun k => val_main_v41 (F := Ideal) x0 x1 x2 x3 x4 (ix2 e k)) (fun k j => x5 (ix2 k j)) (fun j => x6 (ix1 j)) j := by
  have el : ∀ k : Fin 128, lidx_main_v42 (ix2 e j) k = ix2 e k := fun k => funext fun a => Fin.ext (by match a with | ⟨0, _⟩ => rfl | ⟨1, _⟩ => rfl)
  have er : ∀ k : Fin 128, ridx_main_v42 (ix2 e j) k = ix2 k j := fun k => funext fun a => Fin.ext (by match a with | ⟨0, _⟩ => rfl | ⟨1, _⟩ => rfl)
  have eb : idx_main_v43 (idx_main_v44 (ix2 e j)) = ix1 j := funext fun a => Fin.ext (by match a with | ⟨0, _⟩ => rfl)
  rw [val_main_v45_apply, val_main_v44_apply, val_main_v43_apply, eb, val_main_v42_apply]
  simp only [el, er, Ideal.addf_def]
  rfl

/-- The second edge layer's activation. -/
theorem edge_act2 (p : S600000x128.Idx) :
    val_main_v46 (F := Ideal) x0 x1 x2 x3 x4 x5 x6 p = Cert.Egcl.silu (val_main_v45 (F := Ideal) x0 x1 x2 x3 x4 x5 x6 p) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_expanded _

/-- An edge's feature, at an edge and a column. -/
theorem edge_feat_at (e : Fin 600000) (j : Fin 128) :
    val_main_v46 (F := Ideal) x0 x1 x2 x3 x4 x5 x6 (ix2 e j)
      = Cert.Egcl.edgeFeat (fun k => val_main_v28 (F := Ideal) x0 x2 (ix2 e k)) (fun k => val_main_v35 (F := Ideal) x0 x2 (ix2 e k))
          (fun k => val_main_v18 (F := Ideal) x1 x2 (ix2 e k))
          (fun k j => x3 (ix2 ⟨k.val, by omega⟩ j)) (fun k j => x3 (ix2 ⟨128 + k.val, by omega⟩ j))
          (fun j => x3 (ix2 ⟨256, by omega⟩ j)) (fun j => x4 (ix1 j)) (fun k j => x5 (ix2 k j)) (fun j => x6 (ix1 j)) j := by
  rw [edge_act2, edge_lin2]
  simp only [edge_act1, edge_pre]
  rfl

/-- An edge's feature is the specification's `edgeFeat` of its endpoint rows and its coordinate difference. -/
theorem edge_feat (i : S600000x128.Idx) :
    val_main_v46 (F := Ideal) x0 x1 x2 x3 x4 x5 x6 i
      = Cert.Egcl.edgeFeat (fun k => val_main_v28 (F := Ideal) x0 x2 (ix2 (i 0) k)) (fun k => val_main_v35 (F := Ideal) x0 x2 (ix2 (i 0) k))
          (fun k => val_main_v18 (F := Ideal) x1 x2 (ix2 (i 0) k))
          (fun k j => x3 (ix2 ⟨k.val, by omega⟩ j)) (fun k j => x3 (ix2 ⟨128 + k.val, by omega⟩ j))
          (fun j => x3 (ix2 ⟨256, by omega⟩ j)) (fun j => x4 (ix1 j)) (fun k j => x5 (ix2 k j)) (fun j => x6 (ix1 j)) (i 1) := by
  obtain ⟨e, j, rfl⟩ : ∃ (e : Fin 600000) (j : Fin 128), i = ix2 e j := ⟨i 0, i 1, eq_ix2 i⟩
  exact edge_feat_at x0 x1 x2 x3 x4 x5 x6 e j

/-! ## The translation -/

/-- The coordinate network's first layer before its activation. -/
theorem coord_lin (e : Fin 600000) (k : Fin 128) :
    val_main_v50 (F := Ideal) x0 x1 x2 x3 x4 x5 x6 x11 x12 (ix2 e k)
      = Cert.Egcl.dense (fun l => val_main_v46 (F := Ideal) x0 x1 x2 x3 x4 x5 x6 (ix2 e l)) (fun l k => x11 (ix2 l k)) (fun k => x12 (ix1 k)) k := by
  have el : ∀ l : Fin 128, lidx_main_v47 (ix2 e k) l = ix2 e l := fun l => funext fun a => Fin.ext (by match a with | ⟨0, _⟩ => rfl | ⟨1, _⟩ => rfl)
  have er : ∀ l : Fin 128, ridx_main_v47 (ix2 e k) l = ix2 l k := fun l => funext fun a => Fin.ext (by match a with | ⟨0, _⟩ => rfl | ⟨1, _⟩ => rfl)
  have eb : idx_main_v48 (idx_main_v49 (ix2 e k)) = ix1 k := funext fun a => Fin.ext (by match a with | ⟨0, _⟩ => rfl)
  rw [val_main_v50_apply, val_main_v49_apply, val_main_v48_apply, eb, val_main_v47_apply]
  simp only [el, er, Ideal.addf_def]
  rfl

/-- The coordinate network's activation. -/
theorem coord_act (p : S600000x128.Idx) :
    val_main_v51 (F := Ideal) x0 x1 x2 x3 x4 x5 x6 x11 x12 p = Cert.Egcl.silu (val_main_v50 (F := Ideal) x0 x1 x2 x3 x4 x5 x6 x11 x12 p) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply]
  exact silu_expanded _

/-- An edge's translation, at an edge and an axis. -/
theorem trans_at (e : Fin 600000) (a : Fin 3) :
    val_main_v54 (F := Ideal) x0 x1 x2 x3 x4 x5 x6 x11 x12 x13 (ix2 e a)
      = val_main_v18 (F := Ideal) x1 x2 (ix2 e a) * Cert.Egcl.coordScale (fun k => val_main_v46 (F := Ideal) x0 x1 x2 x3 x4 x5 x6 (ix2 e k))
          (fun l k => x11 (ix2 l k)) (fun k => x12 (ix1 k)) (fun k => x13 (ix2 k (0 : Fin 1))) := by
  have e0 : idx_main_v53 (ix2 e a) = ix2 e (0 : Fin 1) := funext fun a => Fin.ext (by match a with | ⟨0, _⟩ => rfl | ⟨1, _⟩ => rfl)
  have el : ∀ k : Fin 128, lidx_main_v52 (ix2 e (0 : Fin 1)) k = ix2 e k := fun k => funext fun a => Fin.ext (by match a with | ⟨0, _⟩ => rfl | ⟨1, _⟩ => rfl)
  have er : ∀ k : Fin 128, ridx_main_v52 (ix2 e (0 : Fin 1)) k = ix2 k (0 : Fin 1) := fun k => funext fun a => Fin.ext (by match a with | ⟨0, _⟩ => rfl | ⟨1, _⟩ => rfl)
  rw [val_main_v54_apply, val_main_v53_apply, e0, val_main_v52_apply]
  simp only [el, er, coord_act, coord_lin, Ideal.mulf_def]
  rfl

/-- An edge's translation is its coordinate difference times the specification's `coordScale` of its feature. -/
theorem trans (i : S600000x3.Idx) :
    val_main_v54 (F := Ideal) x0 x1 x2 x3 x4 x5 x6 x11 x12 x13 i
      = val_main_v18 (F := Ideal) x1 x2 i * Cert.Egcl.coordScale (fun k => val_main_v46 (F := Ideal) x0 x1 x2 x3 x4 x5 x6 (ix2 (i 0) k))
          (fun l k => x11 (ix2 l k)) (fun k => x12 (ix1 k)) (fun k => x13 (ix2 k (0 : Fin 1))) := by
  obtain ⟨e, a, rfl⟩ : ∃ (e : Fin 600000) (a : Fin 3), i = ix2 e a := ⟨i 0, i 1, eq_ix2 i⟩
  exact trans_at x0 x1 x2 x3 x4 x5 x6 x11 x12 x13 e a

/-! ## The new node feature -/

/-- Columns 0 … 127 of the node network's input are the node's own features. -/
theorem cat_node_self (n : Fin 50000) (k : Fin 128) :
    val_main_v70 (F := Ideal) x0 x1 x2 x3 x4 x5 x6 (ix2 n (⟨k.val, by omega⟩ : Fin 256)) = x0 (ix2 n k) := by
  unfold val_main_v70
  exact concatenate_apply_piece (t := S50000x256) (1 : Fin 2) _ _ _
    0 (by simp) S50000x128 x0 rfl rfl 0 rfl (ix2 n k)
    (fun b hb => by match b with | ⟨0, _⟩ => rfl | ⟨1, _⟩ => exact absurd rfl hb)
    (by show 0 + k.val = k.val; omega)

/-- Columns 128 … 255 are the node's aggregated edge features. -/
theorem cat_node_agg (n : Fin 50000) (k : Fin 128) :
    val_main_v70 (F := Ideal) x0 x1 x2 x3 x4 x5 x6 (ix2 n (⟨128 + k.val, by omega⟩ : Fin 256)) = val_main_v69 (F := Ideal) x0 x1 x2 x3 x4 x5 x6 (ix2 n k) := by
  unfold val_main_v70
  exact concatenate_apply_piece (t := S50000x256) (1 : Fin 2) _ _ _
    1 (by simp) S50000x128 (val_main_v69 (F := Ideal) x0 x1 x2 x3 x4 x5 x6) rfl rfl 128 rfl (ix2 n k)
    (fun b hb => by match b with | ⟨0, _⟩ => rfl | ⟨1, _⟩ => exact absurd rfl hb)
    (by show 128 + k.val = 128 + k.val; rfl)

/-- The first node layer before its activation: the 256-term contraction split into its two groups, plus the bias. -/
theorem node_pre (n : Fin 50000) (j : Fin 128) :
    val_main_v74 (F := Ideal) x0 x1 x2 x3 x4 x5 x6 x7 x8 (ix2 n j)
      = Cert.Egcl.nodePre (fun k => x0 (ix2 n k)) (fun k => val_main_v69 (F := Ideal) x0 x1 x2 x3 x4 x5 x6 (ix2 n k))
          (fun l k => x7 (ix2 ⟨l.val, by omega⟩ k)) (fun l k => x7 (ix2 ⟨128 + l.val, by omega⟩ k)) (fun k => x8 (ix1 k)) j := by
  have el : ∀ k : Fin 256, lidx_main_v71 (ix2 n j) k = ix2 n k := fun k => funext fun a => Fin.ext (by match a with | ⟨0, _⟩ => rfl | ⟨1, _⟩ => rfl)
  have er : ∀ k : Fin 256, ridx_main_v71 (ix2 n j) k = ix2 k j := fun k => funext fun a => Fin.ext (by match a with | ⟨0, _⟩ => rfl | ⟨1, _⟩ => rfl)
  have eb : idx_main_v72 (idx_main_v73 (ix2 n j)) = ix1 j := funext fun a => Fin.ext (by match a with | ⟨0, _⟩ => rfl)
  rw [val_main_v74_apply, val_main_v73_apply, val_main_v72_apply, eb, val_main_v71_apply]
  simp only [el, er]
  rw [Cert.Egcl.sum_256]
  simp only [cat_node_self, cat_node_agg, Ideal.addf_def]
  rfl

/-- The node network's activation. -/
theorem node_act (p : S50000x128.Idx) :
    val_main_v75 (F := Ideal) x0 x1 x2 x3 x4 x5 x6 x7 x8 p = Cert.Egcl.silu (val_main_v74 (F := Ideal) x0 x1 x2 x3 x4 x5 x6 x7 x8 p) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply]
  exact silu_expanded _

/-- The second node layer. -/
theorem node_lin2 (n : Fin 50000) (j : Fin 128) :
    val_main_v79 (F := Ideal) x0 x1 x2 x3 x4 x5 x6 x7 x8 x9 x10 (ix2 n j)
      = Cert.Egcl.dense (fun k => val_main_v75 (F := Ideal) x0 x1 x2 x3 x4 x5 x6 x7 x8 (ix2 n k)) (fun k j => x9 (ix2 k j)) (fun j => x10 (ix1 j)) j := by
  have el : ∀ k : Fin 128, lidx_main_v76 (ix2 n j) k = ix2 n k := fun k => funext fun a => Fin.ext (by match a with | ⟨0, _⟩ => rfl | ⟨1, _⟩ => rfl)
  have er : ∀ k : Fin 128, ridx_main_v76 (ix2 n j) k = ix2 k j := fun k => funext fun a => Fin.ext (by match a with | ⟨0, _⟩ => rfl | ⟨1, _⟩ => rfl)
  have eb : idx_main_v77 (idx_main_v78 (ix2 n j)) = ix1 j := funext fun a => Fin.ext (by match a with | ⟨0, _⟩ => rfl)
  rw [val_main_v79_apply, val_main_v78_apply, val_main_v77_apply, eb, val_main_v76_apply]
  simp only [el, er, Ideal.addf_def]
  rfl

/-- A node's new feature, at a node and a column. -/
theorem h_new_at (n : Fin 50000) (j : Fin 128) :
    val_main_v80 (F := Ideal) x0 x1 x2 x3 x4 x5 x6 x7 x8 x9 x10 (ix2 n j)
      = Cert.Egcl.nodeOut (fun k => x0 (ix2 n k)) (fun k => val_main_v69 (F := Ideal) x0 x1 x2 x3 x4 x5 x6 (ix2 n k))
          (fun l k => x7 (ix2 ⟨l.val, by omega⟩ k)) (fun l k => x7 (ix2 ⟨128 + l.val, by omega⟩ k)) (fun k => x8 (ix1 k))
          (fun k j => x9 (ix2 k j)) (fun j => x10 (ix1 j)) j := by
  rw [val_main_v80_apply, node_lin2]
  simp only [node_act, node_pre, Ideal.addf_def]
  rfl

/-- A node's new feature is the specification's `nodeOut` of its own row and its aggregated edge features. -/
theorem h_new (i : S50000x128.Idx) :
    val_main_v80 (F := Ideal) x0 x1 x2 x3 x4 x5 x6 x7 x8 x9 x10 i
      = Cert.Egcl.nodeOut (fun k => x0 (ix2 (i 0) k)) (fun k => val_main_v69 (F := Ideal) x0 x1 x2 x3 x4 x5 x6 (ix2 (i 0) k))
          (fun l k => x7 (ix2 ⟨l.val, by omega⟩ k)) (fun l k => x7 (ix2 ⟨128 + l.val, by omega⟩ k)) (fun k => x8 (ix1 k))
          (fun k j => x9 (ix2 k j)) (fun j => x10 (ix1 j)) (i 1) := by
  obtain ⟨n, j, rfl⟩ : ∃ (n : Fin 50000) (j : Fin 128), i = ix2 n j := ⟨i 0, i 1, eq_ix2 i⟩
  exact h_new_at x0 x1 x2 x3 x4 x5 x6 x7 x8 x9 x10 n j

end Cert.ReferenceIdeal.RefValue

end
-- ==== Proof.LibRowScatter.lean ====
/-
  THE ACCUMULATING SCATTER OF ROWS, READ AT AN INDEX, on the extended reals.

  A segment sum of rows: an operand `x : [N, C]`, one row number per update `idx : [E, 1]` and updates
  `upd : [E, C]`, with the dimension numbers update_window_dims = [1], inserted_window_dims = [0],
  scatter_dims_to_operand_dims = [0], index_vector_dim = 1. Update row `e` is added into operand row
  `idx[e, 0]`, the row number read as a SIGNED integer and not clamped; a row number outside `[0, N)`
  drops the update row.

  Proved here, for all sizes `N E C`:
    * `rowScatter_resultIdx?`: update element `(e, c')` lands at operand element `(n, c)` exactly when
      `idx[e, 0] = n` (as integers) and `c' = c`;
    * `hostScatterAdd_rowScatter_apply`: the result at `(n, c)` is
      `x[n, c] + Σ_e (if idx[e, 0] = n then upd[e, c] else 0)`.
  Nothing here mentions a program.
-/
import Idealize.ShloMosaic.PureOps.Ideal
import Idealize.ShloMosaic.Lib.ValueIdx
import Idealize.ShloMosaic.Lib.Pipeline.Value

noncomputable section

open scoped BigOperators

namespace Cert.RowScatter

open Idealize.ShloMosaic Idealize.ShloMosaic.ValueIdx

/-- The row scatter's dimension numbers at any sizes (a record printed with these four lists is this one by `rfl`). -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

section
variable {N E C : Nat} (wf : ScatterDims.WF ⟨2, ![N, C]⟩ ⟨2, ![E, 1]⟩ ⟨2, ![E, C]⟩ [1] [0] [0] 1)

/-- On the row axis the window starts at the row number `idx[e, 0]`, read signed. -/
theorem rowScatter_start0 {w : Nat} (j : (⟨2, ![E, C]⟩ : Shape).Idx) (idx : IVec ⟨2, ![E, 1]⟩ w) :
    (rowScatter N E C wf).start j idx 0 = (idx (ix2 (j 0) (0 : Fin 1))).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the scatter indices name the row axis only. -/
theorem rowScatter_start1 {w : Nat} (j : (⟨2, ![E, C]⟩ : Shape).Idx) (idx : IVec ⟨2, ![E, 1]⟩ w) :
    (rowScatter N E C wf).start j idx 1 = 0 := by
  unfold ScatterDims.start
  rw [dif_neg (show ¬ (1 : Fin 2) ∈ (rowScatter N E C wf).scatterDimsToOperandDims from
    (by decide : ¬ (1 : Fin 2) ∈ ([0] : List (Fin 2))))]

/-- The row axis is inserted: the window coordinate on it is `0`. -/
theorem rowScatter_window0 (j : (⟨2, ![E, C]⟩ : Shape).Idx) : (rowScatter N E C wf).window j 0 = 0 := by
  unfold ScatterDims.window
  rw [dif_neg (show ¬ (0 : Fin 2) ∈ (rowScatter N E C wf).sKept from
    (by decide : ¬ (0 : Fin 2) ∈ ([1] : List (Fin 2))))]

/-- The column axis is the one window axis: the window coordinate on it is the update's column. -/
theorem rowScatter_window1 (j : (⟨2, ![E, C]⟩ : Shape).Idx) : (rowScatter N E C wf).window j 1 = (j 1).val := by
  unfold ScatterDims.window
  rw [dif_pos (show (1 : Fin 2) ∈ (rowScatter N E C wf).sKept from
    (by decide : (1 : Fin 2) ∈ ([1] : List (Fin 2))))]
  rfl

/-- WHERE AN UPDATE ELEMENT LANDS: update element `j = (e, c')` lands at operand element `i = (n, c)` exactly when the
    row number `idx[e, 0]`, read signed, is `n` and the columns agree. (A row number outside `[0, N)` equals no
    `n`: the update is dropped.) -/
theorem rowScatter_resultIdx? {w : Nat} (j : (⟨2, ![E, C]⟩ : Shape).Idx) (idx : IVec ⟨2, ![E, 1]⟩ w)
    (i : (⟨2, ![N, C]⟩ : Shape).Idx) :
    (rowScatter N E C wf).resultIdx? j idx = some i ↔
      (idx (ix2 (j 0) (0 : Fin 1))).toInt = ((i 0).val : Int) ∧ (j 1).val = (i 1).val := by
  have h0 : (rowScatter N E C wf).start j idx 0 + ((rowScatter N E C wf).window j 0 : Int)
      = (idx (ix2 (j 0) (0 : Fin 1))).toInt := by
    rw [rowScatter_start0, rowScatter_window0]; simp
  have h1 : (rowScatter N E C wf).start j idx 1 + ((rowScatter N E C wf).window j 1 : Int) = ((j 1).val : Int) := by
    rw [rowScatter_start1, rowScatter_window1]; simp
  have hi0 : (i 0).val < N := idx2_lt0 i
  have hi1 : (i 1).val < C := idx2_lt1 i
  have hj1 : (j 1).val < C := idx2_lt1 j
  unfold ScatterDims.resultIdx?
  split_ifs with h
  · rw [Option.some.injEq, funext_iff, Fin.forall_fin_two, Fin.ext_iff, Fin.ext_iff]
    have ha := (h 0).1
    simp only [h0, h1] at ha ⊢
    omega
  · constructor
    · intro hn; exact absurd hn (by simp)
    · rintro ⟨he, hc⟩
      refine absurd (Fin.forall_fin_two.2 ⟨?_, ?_⟩) h
      · rw [h0, he]
        exact ⟨by omega, by exact_mod_cast hi0⟩
      · rw [h1]
        exact ⟨by omega, by exact_mod_cast hj1⟩

/-- THE ROW SCATTER READ AT `(n, c)`: the operand there plus the sum, over the update rows whose row number is `n`,
    of their column `c`. -/
theorem hostScatterAdd_rowScatter_apply {w : Nat} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rowScatter_resultIdx?]
  show (∑ b : Fin C, if (idx (ix2 e (0 : Fin 1))).toInt = (n.val : Int) ∧ b.val = c.val then upd (ix2 e b) else 0) = _
  by_cases hidx : (idx (ix2 e (0 : Fin 1))).toInt = (n.val : Int)
  · simp only [hidx, true_and, if_true, Fin.val_inj]
    rw [Finset.sum_ite_eq' Finset.univ c (fun b => upd (ix2 e b)), if_pos (Finset.mem_univ c)]
  · simp only [hidx, false_and, if_false, Finset.sum_const_zero]

end

/-! ## Two blocks of columns scattered at once

Scattering, into a zero operand, the rows of `[a | b]` (the updates `a : [E, C₁]` and `b : [E, C₂]` side by side, `C`
columns in all) scatters each block by itself: a column below `C₁` of the result is that column of the scatter of `a`,
a column from `C₁` on is column `k − C₁` of the scatter of `b`. -/

section Concat
variable {N E C₁ C₂ C : Nat}
  (wf : ScatterDims.WF ⟨2, ![N, C]⟩ ⟨2, ![E, 1]⟩ ⟨2, ![E, C]⟩ [1] [0] [0] 1)

/-- A column of the first block. -/
theorem hostScatterAdd_rowScatter_concat_left
    (wf₁ : ScatterDims.WF ⟨2, ![N, C₁]⟩ ⟨2, ![E, 1]⟩ ⟨2, ![E, C₁]⟩ [1] [0] [0] 1)
    {w : Nat} (idx : IVec ⟨2, ![E, 1]⟩ w)
    (a : (⟨2, ![E, C₁]⟩ : Shape).Idx → EReal) (b : (⟨2, ![E, C₂]⟩ : Shape).Idx → EReal)
    (h : Shape.Concatenates [⟨2, ![E, C₁]⟩, ⟨2, ![E, C₂]⟩] ⟨2, ![E, C]⟩ 1)
    (n : Fin N) (k : Fin C) (hk : k.val < C₁) :
    Ideal.hostScatterAdd (rowScatter N E C wf) (fun _ => 0) idx
        (concatenate ⟨2, ![E, C]⟩ 1 [⟨⟨2, ![E, C₁]⟩, a⟩, ⟨⟨2, ![E, C₂]⟩, b⟩] h) (ix2 n k)
      = Ideal.hostScatterAdd (rowScatter N E C₁ wf₁) (fun _ => 0) idx a (ix2 n ⟨k.val, hk⟩) := by
  rw [hostScatterAdd_rowScatter_apply, hostScatterAdd_rowScatter_apply]
  congr 1
  refine Finset.sum_congr rfl fun e _ => ?_
  rw [concatenate_pair_apply_left 1 a b h (ix2 e k) rfl (ix2 e ⟨k.val, hk⟩)
    (fun b => match b with | ⟨0, _⟩ => rfl | ⟨1, _⟩ => rfl)]

/-- A column of the second block. -/
theorem hostScatterAdd_rowScatter_concat_right
    (wf₂ : ScatterDims.WF ⟨2, ![N, C₂]⟩ ⟨2, ![E, 1]⟩ ⟨2, ![E, C₂]⟩ [1] [0] [0] 1)
    {w : Nat} (idx : IVec ⟨2, ![E, 1]⟩ w)
    (a : (⟨2, ![E, C₁]⟩ : Shape).Idx → EReal) (b : (⟨2, ![E, C₂]⟩ : Shape).Idx → EReal)
    (h : Shape.Concatenates [⟨2, ![E, C₁]⟩, ⟨2, ![E, C₂]⟩] ⟨2, ![E, C]⟩ 1)
    (n : Fin N) (k : Fin C) (hk : C₁ ≤ k.val) (hk₂ : k.val - C₁ < C₂) :
    Ideal.hostScatterAdd (rowScatter N E C wf) (fun _ => 0) idx
        (concatenate ⟨2, ![E, C]⟩ 1 [⟨⟨2, ![E, C₁]⟩, a⟩, ⟨⟨2, ![E, C₂]⟩, b⟩] h) (ix2 n k)
      = Ideal.hostScatterAdd (rowScatter N E C₂ wf₂) (fun _ => 0) idx b (ix2 n ⟨k.val - C₁, hk₂⟩) := by
  rw [hostScatterAdd_rowScatter_apply, hostScatterAdd_rowScatter_apply]
  congr 1
  refine Finset.sum_congr rfl fun e _ => ?_
  rw [concatenate_pair_apply_right 1 a b h (ix2 e k) rfl rfl (ix2 e ⟨k.val - C₁, hk₂⟩)
    (fun b hb => match b, hb with | ⟨0, _⟩, _ => rfl | ⟨1, _⟩, hb => absurd rfl hb)
    (show k.val - C₁ + C₁ = k.val by omega)]

end Concat

end Cert.RowScatter
-- ==== Proof.Bridge.lean ====
/-
  The two idealized programs compute the same three arrays.

  Both programs gather the same endpoint rows with the same index normalisation and take the same coordinate difference,
  so the per-edge operands agree term for term. The kernel's first edge layer takes the 257 weight rows in three groups
  where the reference contracts all 257 at once — one sum, split — and every later operation is the same on both sides,
  a change of float format being the identity. The kernel sums the translations and a column of ones over each node's
  edges in ONE pass over four columns and cuts the result; the reference makes two passes: a scatter-add of rows is
  column by column, so the first three columns and the last are the reference's two results.
-/
import proofs.«129493_j21560735826057_2_alg».proof.Proof.KernelValue
import proofs.«129493_j21560735826057_2_alg».proof.Proof.RefRead
import proofs.«129493_j21560735826057_2_alg».proof.Proof.LibRowScatter

set_option maxRecDepth 16384

noncomputable section

namespace Cert.Bridge

open Cert.ReferenceIdeal Cert.ReferenceIdeal.Read Idealize.ShloMosaic Idealize.ShloMosaic.ValueIdx
open Cert.KernelIdeal.HostValue Cert.KernelIdeal.Result

variable (x0 : (⟨S50000x128, .f32⟩ : BufTy).Contents (Elt Ideal)) (x1 : (⟨S50000x3, .f32⟩ : BufTy).Contents (Elt Ideal))
  (x2 : (⟨S2x600000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal)) (x13 : (⟨S128x1, .f32⟩ : BufTy).Contents (Elt Ideal))

/-! ## The shared host terms -/

/-- The features gathered at the source endpoints. -/
theorem gather_row : gatherH x0 (rowI x2) = val_main_v28 (F := Ideal) x0 x2 := rfl
/-- The features gathered at the target endpoints. -/
theorem gather_col : gatherH x0 (colI x2) = val_main_v35 (F := Ideal) x0 x2 := rfl
/-- The coordinate differences. -/
theorem diff : coordDiff x1 x2 = val_main_v18 (F := Ideal) x1 x2 := rfl

/-! ## The edge features -/

theorem feat_eq : featOf x0 x1 x2 x3 x4 x5 x6 = val_main_v46 (F := Ideal) x0 x1 x2 x3 x4 x5 x6 := by
  funext i
  rw [Cert.ReferenceIdeal.RefValue.edge_feat x0 x1 x2 x3 x4 x5 x6 i, ← gather_row x0 x2, ← gather_col x0 x2, ← diff x1 x2]
  unfold featOf Cert.KernelIdeal.EdgeValue.featArr
  have s0 : ∀ (k j : Fin 128), (truncf .bf16 (extractStridedSlice Cert.KernelIdeal.S128x128 ![0, 0] x3 Cert.KernelIdeal.Gen.slices_S257x128_S128x128_0_0)
      Cert.KernelIdeal.Gen.bitsLt_bf16_f32 : FVec Ideal Cert.KernelIdeal.S128x128 .bf16) (ix2 k j) = x3 (ix2 ⟨k.val, by omega⟩ j) :=
    fun k j => slice2_axis0_apply 0 x3 Cert.KernelIdeal.Gen.slices_S257x128_S128x128_0_0 k j ⟨k.val, by omega⟩ (Nat.zero_add _).symm
  have s1 : ∀ (k j : Fin 128), (truncf .bf16 (extractStridedSlice Cert.KernelIdeal.S128x128 ![128, 0] x3 Cert.KernelIdeal.Gen.slices_S257x128_S128x128_128_0)
      Cert.KernelIdeal.Gen.bitsLt_bf16_f32 : FVec Ideal Cert.KernelIdeal.S128x128 .bf16) (ix2 k j) = x3 (ix2 ⟨128 + k.val, by omega⟩ j) :=
    fun k j => slice2_axis0_apply 128 x3 Cert.KernelIdeal.Gen.slices_S257x128_S128x128_128_0 k j ⟨128 + k.val, by omega⟩ rfl
  have s2 : ∀ (j : Fin 128), (extractStridedSlice Cert.KernelIdeal.S1x128 ![256, 0] x3 Cert.KernelIdeal.Gen.slices_S257x128_S1x128_256_0) (ix2 (0 : Fin 1) j)
      = x3 (ix2 ⟨256, by omega⟩ j) :=
    fun j => slice2_axis0_apply 256 x3 Cert.KernelIdeal.Gen.slices_S257x128_S1x128_256_0 (0 : Fin 1) j ⟨256, by omega⟩ rfl
  simp only [s0, s1, s2]
  rfl

/-! ## The translations -/

theorem trans_eq : transOf x0 x1 x2 x3 x4 x5 x6 x11 x12 x13 = val_main_v54 (F := Ideal) x0 x1 x2 x3 x4 x5 x6 x11 x12 x13 := by
  funext i
  rw [Cert.ReferenceIdeal.RefValue.trans x0 x1 x2 x3 x4 x5 x6 x11 x12 x13 i, ← diff x1 x2]
  have hf : ∀ k : Fin 128, val_main_v46 (F := Ideal) x0 x1 x2 x3 x4 x5 x6 (ix2 (i 0) k) = featOf x0 x1 x2 x3 x4 x5 x6 (ix2 (i 0) k) :=
    fun k => (congrFun (feat_eq x0 x1 x2 x3 x4 x5 x6) _).symm
  simp only [hf]
  unfold transOf featOf Cert.KernelIdeal.EdgeValue.transArr Cert.KernelIdeal.EdgeValue.featArr
  rfl

/-! ## The edge features summed per node, and the new node features -/

/-- A change to the 16-bit format is the identity on the extended reals. -/
theorem truncf_id {s : Shape} (X : FVec Ideal s .f32) (h : FTy.bf16.bits < FTy.f32.bits) :
    (truncf .bf16 X h : FVec Ideal s .bf16) = X := rfl

theorem agg_eq : aggOf (featOf x0 x1 x2 x3 x4 x5 x6) (rowI x2) = val_main_v69 (F := Ideal) x0 x1 x2 x3 x4 x5 x6 := by
  have hz : (broadcastInDim Cert.KernelIdeal.S50000x128 ![] Cert.KernelIdeal.Gen.bcast_S_S50000x128 (constant (F := Ideal) Cert.KernelIdeal.S_ .f32 0x00000000#32)
      : FVec Ideal Cert.KernelIdeal.S50000x128 .f32) = val_main_v67 (F := Ideal) := rfl
  have hi : colIdx (rowI x2) = val_main_v68 (F := Ideal) x2 := rfl
  unfold aggOf val_main_v69
  rw [truncf_id, feat_eq, hz, hi]
  rfl

theorem hnew_eq : hNewOf x0 x1 x2 x3 x4 x5 x6 x7 x8 x9 x10 = val_main_v80 (F := Ideal) x0 x1 x2 x3 x4 x5 x6 x7 x8 x9 x10 := by
  funext i
  rw [Cert.ReferenceIdeal.RefValue.h_new x0 x1 x2 x3 x4 x5 x6 x7 x8 x9 x10 i, ← agg_eq x0 x1 x2 x3 x4 x5 x6]
  unfold hNewOf
  have s0 : ∀ (l k : Fin 128), (truncf .bf16 (extractStridedSlice Cert.KernelIdeal.S128x128 ![0, 0] x7 Cert.KernelIdeal.Gen.slices_S256x128_S128x128_0_0)
      Cert.KernelIdeal.Gen.bitsLt_bf16_f32 : FVec Ideal Cert.KernelIdeal.S128x128 .bf16) (ix2 l k) = x7 (ix2 ⟨l.val, by omega⟩ k) :=
    fun l k => slice2_axis0_apply 0 x7 Cert.KernelIdeal.Gen.slices_S256x128_S128x128_0_0 l k ⟨l.val, by omega⟩ (Nat.zero_add _).symm
  have s1 : ∀ (l k : Fin 128), (truncf .bf16 (extractStridedSlice Cert.KernelIdeal.S128x128 ![128, 0] x7 Cert.KernelIdeal.Gen.slices_S256x128_S128x128_128_0)
      Cert.KernelIdeal.Gen.bitsLt_bf16_f32 : FVec Ideal Cert.KernelIdeal.S128x128 .bf16) (ix2 l k) = x7 (ix2 ⟨128 + l.val, by omega⟩ k) :=
    fun l k => slice2_axis0_apply 128 x7 Cert.KernelIdeal.Gen.slices_S256x128_S128x128_128_0 l k ⟨128 + l.val, by omega⟩ rfl
  simp only [s0, s1]
  rfl

/-! ## The summed translations and the edge counts: one pass over four columns against two passes -/

/-- The host's accumulating scatter at the ideal instance, whatever its operands. -/
theorem scatterAdd_ideal {s si u : Shape} (d : ScatterDims s si u) {w : Nat} (x : FVec Ideal s .f32) (idx : IVec si w)
    (upd : FVec Ideal u .f32) : Host.scatterAdd d x idx upd = Ideal.hostScatterAdd d x idx upd := rfl

/-- The source endpoints as scatter indices. -/
theorem src_idx : colIdx (rowI x2) = val_main_v56 (F := Ideal) x2 := rfl

theorem tsum_eq : tSumOf (transOf x0 x1 x2 x3 x4 x5 x6 x11 x12 x13) (rowI x2) = val_main_v57 (F := Ideal) x0 x1 x2 x3 x4 x5 x6 x11 x12 x13 := by
  rw [trans_eq]
  funext i
  obtain ⟨n, k, rfl⟩ : ∃ (n : Fin 50000) (k : Fin 3), i = ix2 n k := ⟨i 0, i 1, eq_ix2 i⟩
  unfold tSumOf sum4Of
  rw [slice2_axis1_apply 0 _ Cert.KernelIdeal.Gen.slices_S50000x4_S50000x3_0_0 n k ⟨k.val, by omega⟩ (Nat.zero_add _).symm]
  have hz4 : broadcastInDim Cert.KernelIdeal.S50000x4 ![] Cert.KernelIdeal.Gen.bcast_S_S50000x4 (constant (F := Ideal) Cert.KernelIdeal.S_ .f32 0x00000000#32)
      = fun _ => (0 : EReal) := funext fun _ => Ideal.ofBits_zero_f32
  have hz3 : val_main_v55 (F := Ideal) = fun _ => (0 : EReal) := funext fun _ => Ideal.ofBits_zero_f32
  rw [hz4, src_idx x2, scatterAdd_ideal]
  refine (Cert.RowScatter.hostScatterAdd_rowScatter_concat_left (N := 50000) (E := 600000) (C₁ := 3) (C₂ := 1) (C := 4)
    Cert.KernelIdeal.Gen.scatter_S50000x4_S600000x1_S600000x4_1_0_0_1_wf Cert.ReferenceIdeal.Gen.scatter_S50000x3_S600000x1_S600000x3_1_0_0_1_wf
    (val_main_v56 (F := Ideal) x2) (val_main_v54 (F := Ideal) x0 x1 x2 x3 x4 x5 x6 x11 x12 x13) _
    Cert.KernelIdeal.Gen.concatenates_S600000x3_S600000x1_S600000x4_d1 n ⟨k.val, by omega⟩ k.isLt).trans ?_
  unfold val_main_v57
  rw [hz3, scatterAdd_ideal]
  rfl

theorem cnt_eq : cntOf (transOf x0 x1 x2 x3 x4 x5 x6 x11 x12 x13) (rowI x2) = val_main_v61 (F := Ideal) x2 := by
  funext i
  obtain ⟨n, k, rfl⟩ : ∃ (n : Fin 50000) (k : Fin 1), i = ix2 n k := ⟨i 0, i 1, eq_ix2 i⟩
  unfold cntOf sum4Of
  rw [slice2_axis1_apply 3 _ Cert.KernelIdeal.Gen.slices_S50000x4_S50000x1_0_3 n k ⟨3 + k.val, by omega⟩ rfl]
  have hz4 : broadcastInDim Cert.KernelIdeal.S50000x4 ![] Cert.KernelIdeal.Gen.bcast_S_S50000x4 (constant (F := Ideal) Cert.KernelIdeal.S_ .f32 0x00000000#32)
      = fun _ => (0 : EReal) := funext fun _ => Ideal.ofBits_zero_f32
  have hz1 : val_main_v59 (F := Ideal) = fun _ => (0 : EReal) := funext fun _ => Ideal.ofBits_zero_f32
  rw [hz4, src_idx x2, scatterAdd_ideal]
  refine (Cert.RowScatter.hostScatterAdd_rowScatter_concat_right (N := 50000) (E := 600000) (C₁ := 3) (C₂ := 1) (C := 4)
    Cert.KernelIdeal.Gen.scatter_S50000x4_S600000x1_S600000x4_1_0_0_1_wf Cert.ReferenceIdeal.Gen.scatter_S50000x1_S600000x1_S600000x1_1_0_0_1_wf
    (val_main_v56 (F := Ideal) x2) _ _
    Cert.KernelIdeal.Gen.concatenates_S600000x3_S600000x1_S600000x4_d1 n ⟨3 + k.val, by omega⟩ (by show 3 ≤ 3 + k.val; omega)
    (by show 3 + k.val - 3 < 1; omega)).trans ?_
  unfold val_main_v61
  rw [hz1, scatterAdd_ideal]
  have hk : (⟨3 + k.val - 3, by omega⟩ : Fin 1) = k := Fin.ext (by show 3 + k.val - 3 = k.val; omega)
  rw [hk]
  rfl

/-! ## The new node coordinates -/

theorem xnew_eq : xNewOf x0 x1 x2 x3 x4 x5 x6 x11 x12 x13 = val_main_v66 (F := Ideal) x0 x1 x2 x3 x4 x5 x6 x11 x12 x13 := by
  funext i
  rw [Cert.ReferenceIdeal.RefValue.coord_new x0 x1 x2 x3 x4 x5 x6 x11 x12 x13 i, ← tsum_eq x0 x1 x2 x3 x4 x5 x6 x11 x12 x13, ← cnt_eq x0 x1 x2 x3 x4 x5 x6 x11 x12 x13]
  rfl

end Cert.Bridge

end
-- ==== Proof.lean ====
/-
  The certificate: the kernel program and its reference compute, at the ideal instance, the same three arrays.

  The layer (an equivariant graph layer over 50000 nodes and 600000 edges) gathers each edge's endpoint features and
  coordinates, runs a two-layer edge network on [h_row | h_col | ‖Δx‖²], scales the coordinate difference by a scalar
  read off the edge features, sums edge features and translations over each node's outgoing edges, and updates the node
  features by a two-layer node network and the coordinates by the mean translation.

  The three frames: both kernel programs by their generated frame proofs, the reference by its generated run.
  `preserves`: the idealization rewrote nothing. `algebraic`: the kernel program's run ends with its three results at
  `hNewOf`, `xNewOf`, `featOf` of its arguments (the run with the results named, the two regions' output arrays read
  as whole-array functions, the host operations between them read back); the reference's run ends with its results at
  the generated composed terms, which are the same three functions of the same arguments (the bridge): a 257-term
  contraction split 128 + 128 + 1, a 256-term one split 128 + 128, one scatter-add over four columns against two
  scatter-adds, and the logistic function spelt out on one side.
-/
import proofs.«129493_j21560735826057_2_alg».proof.Defs
import proofs.«129493_j21560735826057_2_alg».proof.Proof.Gen.Kernel
import proofs.«129493_j21560735826057_2_alg».proof.Proof.Gen.Kernel.Skeleton
import proofs.«129493_j21560735826057_2_alg».proof.Proof.Gen.Kernel.Launch
import proofs.«129493_j21560735826057_2_alg».proof.Proof.Gen.Kernel.Points
import proofs.«129493_j21560735826057_2_alg».proof.Proof.Gen.Kernel.Frame
import proofs.«129493_j21560735826057_2_alg».proof.Proof.Gen.KernelIdeal
import proofs.«129493_j21560735826057_2_alg».proof.Proof.Gen.KernelIdeal.Skeleton
import proofs.«129493_j21560735826057_2_alg».proof.Proof.Gen.KernelIdeal.Launch
import proofs.«129493_j21560735826057_2_alg».proof.Proof.Gen.KernelIdeal.Points
import proofs.«129493_j21560735826057_2_alg».proof.Proof.Gen.KernelIdeal.Frame
import proofs.«129493_j21560735826057_2_alg».proof.Proof.Gen.ReferenceIdeal
import proofs.«129493_j21560735826057_2_alg».proof.Proof.Gen.Pre_finite_inputs
import proofs.«129493_j21560735826057_2_alg».proof.Proof.Gen.ReferenceIdeal.Run
import proofs.«129493_j21560735826057_2_alg».proof.Proof.Gen.ReferenceIdeal.Read
import proofs.«129493_j21560735826057_2_alg».proof.Proof.KernelRun
import proofs.«129493_j21560735826057_2_alg».proof.Proof.KernelValue
import proofs.«129493_j21560735826057_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both runs end with the new node features, the new coordinates and the edge features at the same three functions of
    the arguments, which agree on the two memories. -/
theorem algebraic : Cert.algebraic_KernelIdeal_ReferenceIdeal := by
  intro m ρ m' ρ' _ hagree
  refine ⟨fun c => Cert.KernelIdeal.Result.hNewOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Result.xNewOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Result.featOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (Cert.KernelIdeal.Result.W4_hnew m ρ c), (h c).2.1.trans (Cert.KernelIdeal.Result.W4_xnew m ρ c),
        (h c).2.2.1.trans (Cert.KernelIdeal.Result.W4_feat m ρ c), (h c).2.2.2⟩) (Cert.KernelIdeal.RunValue.run_named m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
      exact (Cert.Bridge.hnew_eq _ _ _ _ _ _ _ _ _ _ _).symm
    · rw [Cert.ReferenceIdeal.Read.val_main_v66_eq, (hagree c).1, (hagree c).2.1, (hagree c).2.2.1, (hagree c).2.2.2.1, (hagree c).2.2.2.2.1, (hagree c).2.2.2.2.2.1, (hagree c).2.2.2.2.2.2.1, (hagree c).2.2.2.2.2.2.2.2.2.2.2.1, (hagree c).2.2.2.2.2.2.2.2.2.2.2.2.1, (hagree c).2.2.2.2.2.2.2.2.2.2.2.2.2]
      exact (Cert.Bridge.xnew_eq _ _ _ _ _ _ _ _ _ _).symm
    · rw [Cert.ReferenceIdeal.Read.val_main_v46_eq, (hagree c).1, (hagree c).2.1, (hagree c).2.2.1, (hagree c).2.2.2.1, (hagree c).2.2.2.2.1, (hagree c).2.2.2.2.2.1, (hagree c).2.2.2.2.2.2.1]
      exact (Cert.Bridge.feat_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
